-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S480000x64 : S_.BroadcastsInDim S480000x64 (![] : Fin 0 → Fin S480000x64.rank)
  reducesTo_S480000x64_S_d0_1 : S480000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg20
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  main_v93

def fn_part4 {F : FTy → Type} [FloatOps F] (main_arg16 : FVec F S192x64 .f32) (main_arg17 : FVec F S64 .f32) (main_arg18 : FVec F S64x64 .f32) (main_arg19 : FVec F S64 .f32) (main_arg20 : FVec F S64x64 .f32) (main_v63 : IVec S_ 1) (main_v67 : IVec S_ 1) : IVec S_ 1 :=
  let main_v68 : IVec S_ 1 := andi main_v63 main_v67
  let main_v69 : FVec F S192x64 .f32 := Host.absf main_arg16
  let main_cst_26 : FVec F S_ .f32 := constant S_ .f32 0x7F800000#32
  let main_v70 : FVec F S192x64 .f32 := broadcastInDim S192x64 ![] bcast_S_S192x64 main_cst_26
  let main_v71 : IVec S192x64 1 := cmpf .olt main_v69 main_v70
  let main_c_27 : IVec S_ 1 := constantI S_ 1 1#1
  let main_v72 : IVec S_ 1 := (fun x v => Host.reduce IntOp.andi x v reducesTo_S192x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S192x64 .f32 := Host.absf main_arg12
  let main_cst_18 : FVec F S_ .f32 := constant S_ .f32 0x7F800000#32
  let main_v50 : FVec F S192x64 .f32 := broadcastInDim S192x64 ![] bcast_S_S192x64 main_cst_18
  fn_part3 (F := F) main_arg13 main_arg14 main_arg15 main_arg16 main_arg17 main_arg18 main_arg19 main_arg20 main_v48 main_v49 main_v50

def fn_part1 {F : FTy → Type} [FloatOps F] (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S30000x64 .f32) (main_arg1 : FVec F S480000x64 .f32) (main_arg2 : IVec S480000 32) (main_arg3 : IVec S480000 32) (main_arg4 : FVec F S192x64 .f32) (main_arg5 : FVec F S64 .f32) (main_arg6 : FVec F S64x64 .f32) (main_arg7 : FVec F S64 .f32) (main_arg8 : FVec F S192x64 .f32) (main_arg9 : FVec F S64 .f32) (main_arg10 : FVec F S64x64 .f32) (main_arg11 : FVec F S64 .f32) (main_arg12 : FVec F S192x64 .f32) (main_arg13 : FVec F S64 .f32) (main_arg14 : FVec F S64x64 .f32) (main_arg15 : FVec F S64 .f32) (main_arg16 : FVec F S192x64 .f32) (main_arg17 : FVec F S64 .f32) (main_arg18 : FVec F S64x64 .f32) (main_arg19 : FVec F S64 .f32) (main_arg20 : FVec F S64x64 .f32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S480000x64 .f32 := Host.absf main_arg1
  let main_cst_0 : FVec F S_ .f32 := constant S_ .f32 0x7F800000#32
  let main_v5 : FVec F S480000x64 .f32 := broadcastInDim S480000x64 ![] bcast_S_S480000x64 main_cst_0
  let main_v6 : IVec S480000x64 1 := cmpf .olt main_v4 main_v5
  let main_c_1 : IVec S_ 1 := constantI S_ 1 1#1
  let main_v7 : IVec S_ 1 := (fun x v => Host.reduce IntOp.andi x v reducesTo_S480000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩
abbrev S480000x1 : Shape := ⟨2, ![480000, 1]⟩
abbrev S64x128 : Shape := ⟨2, ![64, 128]⟩
abbrev S128 : Shape := ⟨1, ![128]⟩
abbrev S128x128 : Shape := ⟨2, ![128, 128]⟩
abbrev S480000x128 : Shape := ⟨2, ![480000, 128]⟩
abbrev S6000x64 : Shape := ⟨2, ![6000, 64]⟩
abbrev S6000x128 : Shape := ⟨2, ![6000, 128]⟩
abbrev S1x128 : Shape := ⟨2, ![1, 128]⟩

abbrev nBuf : Space → Nat
  | .hbm => 88
  | .vmem => 20
  | .smem => 0
  | _ => 0

abbrev bufTy : (tb : Table) → Fin (tcTables nBuf tb) → BufTy
  | .hbm, ⟨0, _⟩ => ⟨S30000x64, .f32⟩
  | .hbm, ⟨1, _⟩ => ⟨S480000x64, .f32⟩
  | .hbm, ⟨2, _⟩ => ⟨S480000, .i32⟩
  | .hbm, ⟨3, _⟩ => ⟨S480000, .i32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S192x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S192x64, .f32⟩
  | .hbm, ⟨17, _⟩ => ⟨S64, .f32⟩
  | .hbm, ⟨18, _⟩ => ⟨S64x64, .f32⟩
  | .hbm, ⟨19, _⟩ => ⟨S64, .f32⟩
  | .hbm, ⟨20, _⟩ => ⟨S64x64, .f32⟩
  | .hbm, ⟨21, _⟩ => ⟨S_, .i32⟩
  | .hbm, ⟨22, _⟩ => ⟨S480000, .i32⟩
  | .hbm, ⟨23, _⟩ => ⟨S480000, .i1⟩
  | .hbm, ⟨24, _⟩ => ⟨S_, .i32⟩
  | .hbm, ⟨25, _⟩ => ⟨S480000, .i32⟩
  | .hbm, ⟨26, _⟩ => ⟨S480000, .i32⟩
  | .hbm, ⟨27, _⟩ => ⟨S480000, .i32⟩
  | .hbm, ⟨28, _⟩ => ⟨S480000x1, .i32⟩
  | .hbm, ⟨29, _⟩ => ⟨S480000x64, .f32⟩
  | .hbm, ⟨30, _⟩ => ⟨S_, .i32⟩
  | .hbm, ⟨31, _⟩ => ⟨S480000, .i32⟩
  | .hbm, ⟨32, _⟩ => ⟨S480000, .i1⟩
  | .hbm, ⟨33, _⟩ => ⟨S_, .i32⟩
  | .hbm, ⟨34, _⟩ => ⟨S480000, .i32⟩
  | .hbm, ⟨35, _⟩ => ⟨S480000, .i32⟩
  | .hbm, ⟨36, _⟩ => ⟨S480000, .i32⟩
  | .hbm, ⟨37, _⟩ => ⟨S480000x1, .i32⟩
  | .hbm, ⟨38, _⟩ => ⟨S480000x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x128, .f32⟩
  | .hbm, ⟨46, _⟩ => ⟨S64x128, .f32⟩
  | .hbm, ⟨47, _⟩ => ⟨S64x128, .f32⟩
  | .hbm, ⟨48, _⟩ => ⟨S128, .f32⟩
  | .hbm, ⟨49, _⟩ => ⟨S_, .f32⟩
  | .hbm, ⟨50, _⟩ => ⟨S64x64, .f32⟩
  | .hbm, ⟨51, _⟩ => ⟨S64x128, .f32⟩
  | .hbm, ⟨52, _⟩ => ⟨S64x128, .f32⟩
  | .hbm, ⟨53, _⟩ => ⟨S128x128, .f32⟩
  | .hbm, ⟨54, _⟩ => ⟨S128, .f32⟩
  | .hbm, ⟨55, _⟩ => ⟨S64x128, .bf16⟩
  | .hbm, ⟨56, _⟩ => ⟨S64x128, .bf16⟩
  | .hbm, ⟨57, _⟩ => ⟨S64x128, .bf16⟩
  | .hbm, ⟨58, _⟩ => ⟨S128x128, .bf16⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x128, .f32⟩
  | .hbm, ⟨66, _⟩ => ⟨S64x128, .f32⟩
  | .hbm, ⟨67, _⟩ => ⟨S64x128, .f32⟩
  | .hbm, ⟨68, _⟩ => ⟨S128, .f32⟩
  | .hbm, ⟨69, _⟩ => ⟨S_, .f32⟩
  | .hbm, ⟨70, _⟩ => ⟨S64x64, .f32⟩
  | .hbm, ⟨71, _⟩ => ⟨S64x128, .f32⟩
  | .hbm, ⟨72, _⟩ => ⟨S64x128, .f32⟩
  | .hbm, ⟨73, _⟩ => ⟨S128x128, .f32⟩
  | .hbm, ⟨74, _⟩ => ⟨S128, .f32⟩
  | .hbm, ⟨75, _⟩ => ⟨S64x128, .bf16⟩
  | .hbm, ⟨76, _⟩ => ⟨S64x128, .bf16⟩
  | .hbm, ⟨77, _⟩ => ⟨S64x128, .bf16⟩
  | .hbm, ⟨78, _⟩ => ⟨S128x128, .bf16⟩
  | .hbm, ⟨79, _⟩ => ⟨S480000x128, .f32⟩
  | .hbm, ⟨80, _⟩ => ⟨S480000x64, .f32⟩
  | .hbm, ⟨81, _⟩ => ⟨S480000x64, .f32⟩
  | .hbm, ⟨82, _⟩ => ⟨S_, .f32⟩
  | .hbm, ⟨83, _⟩ => ⟨S30000x64, .f32⟩
  | .hbm, ⟨84, _⟩ => ⟨S480000x1, .i32⟩
  | .hbm, ⟨85, _⟩ => ⟨S30000x64, .f32⟩
  | .hbm, ⟨86, _⟩ => ⟨S30000x64, .f32⟩
  | .hbm, ⟨87, _⟩ => ⟨S30000x64, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S64x128, .bf16⟩
  | .local _ .vmem, ⟨7, _⟩ => ⟨S64x128, .bf16⟩
  | .local _ .vmem, ⟨8, _⟩ => ⟨S64x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S64x128, .bf16⟩
  | .local _ .vmem, ⟨13, _⟩ => ⟨S64x128, .bf16⟩
  | .local _ .vmem, ⟨14, _⟩ => ⟨S64x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S6000x128, .f32⟩
  | .local _ .vmem, ⟨19, _⟩ => ⟨S6000x128, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S6000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  concatenates_S64x64_S64x64_S64x128_d1 : Shape.Concatenates [S64x64, S64x64] S64x128 1
  concatenates_S64_S64_S128_d0 : Shape.Concatenates [S64, S64] S128 0
  bcast_S_S64x64 : S_.BroadcastsInDim S64x64 (![] : Fin 0 → Fin S64x64.rank)
  concatenates_S64x128_S64x128_S128x128_d0 : Shape.Concatenates [S64x128, S64x128] S128x128 0
  bitsLt_bf16_f32 : FTy.bits .bf16 < FTy.bits .f32
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S6000x128_o0_0_S6000x64 : S6000x128.Slices ![0, 0] S6000x64
  slices_S6000x128_o0_64_S6000x64 : S6000x128.Slices ![0, 64] S6000x64
  concatenates_S6000x64_S6000x64_S6000x128_d1 : Shape.Concatenates [S6000x64, S6000x64] S6000x128 1
  inb_S6000x128_S6000x128_0_0 : ∀ a, (![0, 0] : Fin 2 → Nat) a + S6000x128.size a ≤ S6000x128.size a
  h_S6000x128 : 0 < S6000x128.numel
  slices_S480000x128_S480000x64_0_0 : S480000x128.Slices ![0, 0] S480000x64
  slices_S480000x128_S480000x64_0_64 : S480000x128.Slices ![0, 64] S480000x64
  bcast_S_S30000x64 : S_.BroadcastsInDim S30000x64 (![] : Fin 0 → Fin S30000x64.rank)
  gather_S30000x64_S480000x1_S480000x64_1_0_n_n_0_1_164_wf : GatherDims.WF S30000x64 S480000x1 S480000x64 [1] [0] [] [0] [] 1 ![1, 64]
  dot_S6000x64_S64x128_S6000x128_1_0_0_1_n_n_wf : DotDims.WF S6000x64 S64x128 S6000x128 [1] [0] [0] [1] [] []
  dot_S6000x128_S128x128_S6000x128_1_0_0_1_n_n_wf : DotDims.WF S6000x128 S128x128 S6000x128 [1] [0] [0] [1] [] []
  scatter_S30000x64_S480000x1_S480000x64_1_0_0_1_wf : ScatterDims.WF S30000x64 S480000x1 S480000x64 [1] [0] [0] 1
  dot_S30000x64_S64x64_S30000x64_1_0_0_1_n_n_wf : DotDims.WF S30000x64 S64x64 S30000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S480000x64.size a
  hwx0_0 : ∀ i : grid0.Coords, EltTy.bits .f32 = 32 ∨ (Rect.block (s := S480000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S480000x64.size a
  hwx0_1 : ∀ i : grid0.Coords, EltTy.bits .f32 = 32 ∨ (Rect.block (s := S480000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S480000x64.size a
  hwx0_2 : ∀ i : grid0.Coords, EltTy.bits .f32 = 32 ∨ (Rect.block (s := S480000x64) S6000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .bf16 = 32 ∨ (Rect.block (s := S64x128) S64x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .bf16 = 32 ∨ (Rect.block (s := S64x128) S64x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .bf16 = 32 ∨ (Rect.block (s := S64x128) S64x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S6000x128.size a ≤ S480000x128.size a
  hwx0_15 : ∀ i : grid0.Coords, EltTy.bits .f32 = 32 ∨ (Rect.block (s := S480000x128) S6000x128.size (cc0_transform_15 i) (hinb0_15 i)).WholeWords (EltTy.packing .f32)

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf

abbrev win0_0 : Pipeline.Window sig grid0 :=
  Pipeline.Window.ofSpec (Memref.whole main_v6) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v51) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v47) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v52) S6000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S30000x64 : Shape := ⟨2, ![30000, 64]⟩
abbrev S480000x64 : Shape := ⟨2, ![480000, 64]⟩
abbrev S480000 : Shape := ⟨1, ![480000]⟩
abbrev S192x64 : Shape := ⟨2, ![192, 64]⟩
abbrev S64 : Shape := ⟨1, ![64]⟩
abbrev S64x64 : Shape := ⟨2, ![64, 64]⟩
abbrev S_ : Shape := ⟨0, ![]⟩
abbrev S480000x1 : Shape := ⟨2, ![480000, 1]⟩
abbrev S480000x192 : Shape := ⟨2, ![480000, 192]⟩
abbrev S1x64 : Shape := ⟨2, ![1, 64]⟩

abbrev nBuf : Space → Nat
  | .hbm => 152
  | .vmem => 0
  | .smem => 0
  | _ => 0

abbrev hbmTy0_0 (i : Nat) : BufTy := match i % 128 with
  | 0 => ⟨S30000x64, .f32⟩
  | 1 => ⟨S480000x64, .f32⟩
  | 2 => ⟨S480000, .i32⟩
  | 3 => ⟨S480000, .i32⟩
  | 4 => ⟨S192x64, .f32⟩
  | 5 => ⟨S64, .f32⟩
  | 6 => ⟨S64x64, .f32⟩
  | 7 => ⟨S64, .f32⟩
  | 8 => ⟨S192x64, .f32⟩
  | 9 => ⟨S64, .f32⟩
  | 10 => ⟨S64x64, .f32⟩
  | 11 => ⟨S64, .f32⟩
  | 12 => ⟨S192x64, .f32⟩
  | 13 => ⟨S64, .f32⟩
  | 14 => ⟨S64x64, .f32⟩
  | 15 => ⟨S64, .f32⟩
  | 16 => ⟨S192x64, .f32⟩
  | 17 => ⟨S64, .f32⟩
  | 18 => ⟨S64x64, .f32⟩
  | 19 => ⟨S64, .f32⟩
  | 20 => ⟨S64x64, .f32⟩
  | 21 => ⟨S_, .i32⟩
  | 22 => ⟨S480000, .i32⟩
  | 23 => ⟨S480000, .i1⟩
  | 24 => ⟨S_, .i32⟩
  | 25 => ⟨S480000, .i32⟩
  | 26 => ⟨S480000, .i32⟩
  | 27 => ⟨S480000, .i32⟩
  | 28 => ⟨S480000x1, .i32⟩
  | 29 => ⟨S480000x64, .f32⟩
  | 30 => ⟨S_, .i32⟩
  | 31 => ⟨S480000, .i32⟩
  | 32 => ⟨S480000, .i1⟩
  | 33 => ⟨S_, .i32⟩
  | 34 => ⟨S480000, .i32⟩
  | 35 => ⟨S480000, .i32⟩
  | 36 => ⟨S480000, .i32⟩
  | 37 => ⟨S480000x1, .i32⟩
  | 38 => ⟨S480000x64, .f32⟩
  | 39 => ⟨S480000x192, .f32⟩
  | 40 => ⟨S480000x64, .f32⟩
  | 41 => ⟨S1x64, .f32⟩
  | 42 => ⟨S480000x64, .f32⟩
  | 43 => ⟨S480000x64, .f32⟩
  | 44 => ⟨S480000x64, .f32⟩
  | 45 => ⟨S480000x64, .f32⟩
  | 46 => ⟨S_, .f32⟩
  | 47 => ⟨S480000x64, .f32⟩
  | 48 => ⟨S480000x64, .f32⟩
  | 49 => ⟨S_, .f32⟩
  | 50 => ⟨S480000x64, .f32⟩
  | 51 => ⟨S480000x64, .f32⟩
  | 52 => ⟨S480000x64, .f32⟩
  | 53 => ⟨S480000x64, .f32⟩
  | 54 => ⟨S1x64, .f32⟩
  | 55 => ⟨S480000x64, .f32⟩
  | 56 => ⟨S480000x64, .f32⟩
  | 57 => ⟨S480000x64, .f32⟩
  | 58 => ⟨S480000x64, .f32⟩
  | 59 => ⟨S_, .f32⟩
  | 60 => ⟨S480000x64, .f32⟩
  | 61 => ⟨S480000x64, .f32⟩
  | 62 => ⟨S_, .f32⟩
  | 63 => ⟨S480000x64, .f32⟩
  | 64 => ⟨S480000x64, .f32⟩
  | 65 => ⟨S480000x64, .f32⟩
  | 66 => ⟨S480000x64, .f32⟩
  | 67 => ⟨S1x64, .f32⟩
  | 68 => ⟨S480000x64, .f32⟩
  | 69 => ⟨S480000x64, .f32⟩
  | 70 => ⟨S480000x64, .f32⟩
  | 71 => ⟨S480000x64, .f32⟩
  | 72 => ⟨S_, .f32⟩
  | 73 => ⟨S480000x64, .f32⟩
  | 74 => ⟨S480000x64, .f32⟩
  | 75 => ⟨S_, .f32⟩
  | 76 => ⟨S480000x64, .f32⟩
  | 77 => ⟨S480000x64, .f32⟩
  | 78 => ⟨S480000x64, .f32⟩
  | 79 => ⟨S480000x64, .f32⟩
  | 80 => ⟨S1x64, .f32⟩
  | 81 => ⟨S480000x64, .f32⟩
  | 82 => ⟨S480000x64, .f32⟩
  | 83 => ⟨S480000x64, .f32⟩
  | 84 => ⟨S480000x64, .f32⟩
  | 85 => ⟨S_, .f32⟩
  | 86 => ⟨S480000x64, .f32⟩
  | 87 => ⟨S480000x64, .f32⟩
  | 88 => ⟨S_, .f32⟩
  | 89 => ⟨S480000x64, .f32⟩
  | 90 => ⟨S480000x64, .f32⟩
  | 91 => ⟨S480000x64, .f32⟩
  | 92 => ⟨S480000x64, .f32⟩
  | 93 => ⟨S480000x192, .f32⟩
  | 94 => ⟨S480000x64, .f32⟩
  | 95 => ⟨S1x64, .f32⟩
  | 96 => ⟨S480000x64, .f32⟩
  | 97 => ⟨S480000x64, .f32⟩
  | 98 => ⟨S480000x64, .f32⟩
  | 99 => ⟨S480000x64, .f32⟩
  | 100 => ⟨S_, .f32⟩
  | 101 => ⟨S480000x64, .f32⟩
  | 102 => ⟨S480000x64, .f32⟩
  | 103 => ⟨S_, .f32⟩
  | 104 => ⟨S480000x64, .f32⟩
  | 105 => ⟨S480000x64, .f32⟩
  | 106 => ⟨S480000x64, .f32⟩
  | 107 => ⟨S480000x64, .f32⟩
  | 108 => ⟨S1x64, .f32⟩
  | 109 => ⟨S480000x64, .f32⟩
  | 110 => ⟨S480000x64, .f32⟩
  | 111 => ⟨S480000x64, .f32⟩
  | 112 => ⟨S480000x64, .f32⟩
  | 113 => ⟨S_, .f32⟩
  | 114 => ⟨S480000x64, .f32⟩
  | 115 => ⟨S480000x64, .f32⟩
  | 116 => ⟨S_, .f32⟩
  | 117 => ⟨S480000x64, .f32⟩
  | 118 => ⟨S480000x64, .f32⟩
  | 119 => ⟨S480000x64, .f32⟩
  | 120 => ⟨S480000x64, .f32⟩
  | 121 => ⟨S1x64, .f32⟩
  | 122 => ⟨S480000x64, .f32⟩
  | 123 => ⟨S480000x64, .f32⟩
  | 124 => ⟨S480000x64, .f32⟩
  | 125 => ⟨S480000x64, .f32⟩
  | 126 => ⟨S_, .f32⟩
  | 127 => ⟨S480000x64, .f32⟩
  | _ => ⟨S30000x64, .f32⟩

abbrev hbmTy0_1 (i : Nat) : BufTy := match i % 128 with
  | 0 => ⟨S480000x64, .f32⟩
  | 1 => ⟨S_, .f32⟩
  | 2 => ⟨S480000x64, .f32⟩
  | 3 => ⟨S480000x64, .f32⟩
  | 4 => ⟨S480000x64, .f32⟩
  | 5 => ⟨S480000x64, .f32⟩
  | 6 => ⟨S1x64, .f32⟩
  | 7 => ⟨S480000x64, .f32⟩
  | 8 => ⟨S480000x64, .f32⟩
  | 9 => ⟨S480000x64, .f32⟩
  | 10 => ⟨S480000x64, .f32⟩
  | 11 => ⟨S_, .f32⟩
  | 12 => ⟨S480000x64, .f32⟩
  | 13 => ⟨S480000x64, .f32⟩
  | 14 => ⟨S_, .f32⟩
  | 15 => ⟨S480000x64, .f32⟩
  | 16 => ⟨S480000x64, .f32⟩
  | 17 => ⟨S480000x64, .f32⟩
  | 18 => ⟨S_, .f32⟩
  | 19 => ⟨S30000x64, .f32⟩
  | 20 => ⟨S480000x1, .i32⟩
  | 21 => ⟨S30000x64, .f32⟩
  | 22 => ⟨S30000x64, .f32⟩
  | 23 => ⟨S30000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_call2_v5 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst : Ref sig .tc := ⟨.hbm, 85, rfl⟩
abbrev main_v36 : Ref sig .tc := ⟨.hbm, 86, rfl⟩
abbrev main_v37 : Ref sig .tc := ⟨.hbm, 87, rfl⟩
abbrev main_cst_3 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_call3_v0 : Ref sig .tc := ⟨.hbm, 98, rfl⟩
abbrev main_call3_v1 : Ref sig .tc := ⟨.hbm, 99, rfl⟩
abbrev main_call3_cst : Ref sig .tc := ⟨.hbm, 100, rfl⟩
abbrev main_call3_v2 : Ref sig .tc := ⟨.hbm, 101, rfl⟩
abbrev main_call3_v3 : Ref sig .tc := ⟨.hbm, 102, rfl⟩
abbrev main_call3_cst_0 : Ref sig .tc := ⟨.hbm, 103, rfl⟩
abbrev main_call3_v4 : Ref sig .tc := ⟨.hbm, 104, rfl⟩
abbrev main_call3_v5 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_call5_v0 : Ref sig .tc := ⟨.hbm, 124, rfl⟩
abbrev main_call5_v1 : Ref sig .tc := ⟨.hbm, 125, rfl⟩
abbrev main_call5_cst : Ref sig .tc := ⟨.hbm, 126, rfl⟩
abbrev main_call5_v2 : Ref sig .tc := ⟨.hbm, 127, rfl⟩
abbrev main_call5_v3 : Ref sig .tc := ⟨.hbm, 128, rfl⟩
abbrev main_call5_cst_0 : Ref sig .tc := ⟨.hbm, 129, rfl⟩
abbrev main_call5_v4 : Ref sig .tc := ⟨.hbm, 130, rfl⟩
abbrev main_call5_v5 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_cst_4 : Ref sig .tc := ⟨.hbm, 139, rfl⟩
abbrev main_v64 : Ref sig .tc := ⟨.hbm, 140, rfl⟩
abbrev main_v65 : Ref sig .tc := ⟨.hbm, 141, rfl⟩
abbrev main_cst_5 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_6 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩

abbrev nD : Nat := 1
abbrev τ : Topo := Topo.v7x

variable {F : FTy → Type} [FloatOps F]

class Facts₀ : Prop where
  bcast_S_S480000 : S_.BroadcastsInDim S480000 (![] : Fin 0 → Fin S480000.rank)
  bcast_S480000_S480000x1_0 : S480000.BroadcastsInDim S480000x1 (![0] : Fin 1 → Fin S480000x1.rank)
  concatenates_S480000x64_S480000x64_S480000x64_S480000x192_d1 : Shape.Concatenates [S480000x64, S480000x64, S480000x64] S480000x192 1
  bcast_S64_S1x64_1 : S64.BroadcastsInDim S1x64 (![1] : Fin 1 → Fin S1x64.rank)
  bcast_S1x64_S480000x64_0_1 : S1x64.BroadcastsInDim S480000x64 (![0, 1] : Fin 2 → Fin S480000x64.rank)
  bcast_S_S480000x64 : S_.BroadcastsInDim S480000x64 (![] : Fin 0 → Fin S480000x64.rank)
  bcast_S_S30000x64 : S_.BroadcastsInDim S30000x64 (![] : Fin 0 → Fin S30000x64.rank)
  gather_S30000x64_S480000x1_S480000x64_1_0_n_n_0_1_164_wf : GatherDims.WF S30000x64 S480000x1 S480000x64 [1] [0] [] [0] [] 1 ![1, 64]
  dot_S480000x192_S192x64_S480000x64_1_0_0_1_n_n_wf : DotDims.WF S480000x192 S192x64 S480000x64 [1] [0] [0] [1] [] []
  dot_S480000x64_S64x64_S480000x64_1_0_0_1_n_n_wf : DotDims.WF S480000x64 S64x64 S480000x64 [1] [0] [0] [1] [] []
  scatter_S30000x64_S480000x1_S480000x64_1_0_0_1_wf : ScatterDims.WF S30000x64 S480000x1 S480000x64 [1] [0] [0] 1
  dot_S30000x64_S64x64_S30000x64_1_0_0_1_n_n_wf : DotDims.WF S30000x64 S64x64 S30000x64 [1] [0] [0] [1] [] []

variable [Facts₀]

def gather_S30000x64_S480000x1_S480000x64_1_0_n_n_0_1_164 : GatherDims S30000x64 S480000x1 S480000x64 where
  offsetDims := [1]
  collapsedSliceDims := [0]
  operandBatchingDims := []
  startIndicesBatchingDims := []
  startIndexMap := [0]
  indexVectorDim := 1
  sliceSizes := ![1, 64]
  wf := gather_S30000x64_S480000x1_S480000x64_1_0_n_n_0_1_164_wf
def dot_S480000x192_S192x64_S480000x64_1_0_0_1_n_n : DotDims S480000x192 S192x64 S480000x64 where
  lhsContracting := [1]
  rhsContracting := [0]
  lhsNonContracting := [0]
  rhsNonContracting := [1]
  lhsBatch := []
  rhsBatch := []
  wf := dot_S480000x192_S192x64_S480000x64_1_0_0_1_n_n_wf
def dot_S480000x64_S64x64_S480000x64_1_0_0_1_n_n : DotDims S480000x64 S64x64 S480000x64 where
  lhsContracting := [1]
  rhsContracting := [0]
  lhsNonContracting := [0]
  rhsNonContracting := [1]
  lhsBatch := []
  rhsBatch := []
  wf := dot_S480000x64_S64x64_S480000x64_1_0_0_1_n_n_wf
def scatter_S30000x64_S480000x1_S480000x64_1_0_0_1 : ScatterDims S30000x64 S480000x1 S480000x64 where
  updateWindowDims := [1]
  insertedWindowDims := [0]
  scatterDimsToOperandDims := [0]
  indexVectorDim := 1
  wf := scatter_S30000x64_S480000x1_S480000x64_1_0_0_1_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf

class Facts : Prop extends Facts₀ where

variable [Facts]
-- ==== Proof.Spec.lean ====
/-
  The mathematics shared by the two programs, on the extended reals, one edge (one row) at a time.

  A gated two-layer perceptron takes three 64-vectors (source node, edge, destination node), laid side by side as
  one 192-vector x, and two branches of weights ("layers" and "gates"), each W0 : 192×64, b0 : 64, W1 : 64×64, b1 : 64:

      hidden_B k = silu ((∑ q < 192, x q · W0_B q k) + b0_B k)          silu x = x · σ(x),  σ(x) = 1 / (1 + e^(-x))
      out_B j    = (∑ k < 64, hidden_B k · W1_B k j) + b1_B j
      gate j     = silu (out_layers j) · σ (out_gates j)

  The same function can be computed "wide": put the two branches' first-layer weights side by side (64×128 per input
  piece), their biases end to end, and the second-layer weights on the diagonal of a 128×128 matrix whose off-diagonal
  blocks are 0. Then

      wideHidden k = silu (((∑ q < 64, xs q · Ws q k) + (∑ q < 64, xm q · Wm q k)) + (∑ q < 64, xd q · Wd q k) + b0 k)    k < 128
      wideOut c    = (∑ k < 128, wideHidden k · W1 k c) + b1 c                                                         c < 128
      wideGate j   = silu (wideOut j) · σ (wideOut (64 + j))

  and wideGate = gate. Two facts join them, and neither needs finiteness: a sum over 192 (or 128) indices is the sum of
  its 64-index pieces (associativity and commutativity of + only), and x · 0 = 0 for EVERY extended real x (the
  convention 0 · (±∞) = 0), so the off-diagonal blocks contribute a sum of zeros.
-/
import Idealize.ShloMosaic.Lib.ValueIdx
import Idealize.ShloMosaic.PureOps.Ideal.Laws

noncomputable section

namespace Cert.GatedMP

open Idealize.ShloMosaic Idealize.ShloMosaic.ValueIdx

/-- x · σ(x). -/
def silu (x : EReal) : EReal := x * Ideal.logistic x

/-- The binary32 pattern of 1.0 denotes the real number 1. -/
theorem ofBits_one : Ideal.ofBits .f32 0x3F800000#32 = 1 := by
  simp [Ideal.ofBits, Ideal.ieee, -EReal.coe_mul]; norm_num

/-! ## Columns of the wide matrices, rows of the tall ones -/

/-- Column k of the first (layers) half of a 128-wide matrix. -/
def lo (q : Fin 64) : Fin 128 := ⟨q.val, by have := q.isLt; omega⟩
/-- Column k of the second (gates) half. -/
def hi (q : Fin 64) : Fin 128 := ⟨64 + q.val, by have := q.isLt; omega⟩
/-- Row q of the first (source) third of a 192-tall matrix, -/
def p0 (q : Fin 64) : Fin 192 := ⟨q.val, by have := q.isLt; omega⟩
/-- of the second (edge) third, -/
def p1 (q : Fin 64) : Fin 192 := ⟨64 + q.val, by have := q.isLt; omega⟩
/-- of the last (destination) third. -/
def p2 (q : Fin 64) : Fin 192 := ⟨128 + q.val, by have := q.isLt; omega⟩

/-- A sum over 128 indices is the sum over its two halves. -/
theorem sum128 (f : Fin 128 → EReal) : ∑ k, f k = (∑ q : Fin 64, f (lo q)) + ∑ q : Fin 64, f (hi q) :=
  Fin.sum_univ_add (a := 64) (b := 64) f

/-- A sum over 192 indices is the sum over its three thirds. -/
theorem sum192 (f : Fin 192 → EReal) :
    ∑ k, f k = ((∑ q : Fin 64, f (p0 q)) + ∑ q : Fin 64, f (p1 q)) + ∑ q : Fin 64, f (p2 q) := by
  have h1 : ∑ k, f k = (∑ i : Fin 128, f (Fin.castAdd 64 i)) + ∑ q : Fin 64, f (p2 q) :=
    Fin.sum_univ_add (a := 128) (b := 64) f
  rw [h1, sum128 fun i => f (Fin.castAdd 64 i)]
  rfl

/-! ## The reference's form -/

section Forms
variable (xs xm xd : Fin 64 → EReal)

/-- The three 64-vectors side by side. -/
def cat3 (q : Fin 192) : EReal :=
  if h : q.val < 64 then xs ⟨q.val, h⟩
  else if h2 : q.val < 128 then xm ⟨q.val - 64, by omega⟩
  else xd ⟨q.val - 128, by have := q.isLt; omega⟩

theorem cat3_p0 (q : Fin 64) : cat3 xs xm xd (p0 q) = xs q := by
  unfold cat3
  exact dif_pos (show (p0 q).val < 64 from q.isLt)

theorem cat3_p1 (q : Fin 64) : cat3 xs xm xd (p1 q) = xm q := by
  unfold cat3
  rw [dif_neg (show ¬(p1 q).val < 64 by show ¬(64 + q.val < 64); omega),
    dif_pos (show (p1 q).val < 128 by show 64 + q.val < 128; have := q.isLt; omega)]
  exact congrArg xm (Fin.ext (by show 64 + q.val - 64 = q.val; omega))

theorem cat3_p2 (q : Fin 64) : cat3 xs xm xd (p2 q) = xd q := by
  unfold cat3
  rw [dif_neg (show ¬(p2 q).val < 64 by show ¬(128 + q.val < 64); omega),
    dif_neg (show ¬(p2 q).val < 128 by show ¬(128 + q.val < 128); omega)]
  exact congrArg xd (Fin.ext (by show 128 + q.val - 128 = q.val; omega))

/-- The product of the 192-vector with column k of a 192×64 matrix, piece by piece. -/
theorem cat3_sum (W : (⟨2, ![192, 64]⟩ : Shape).Idx → EReal) (k : Fin 64) :
    ∑ q : Fin 192, cat3 xs xm xd q * W (ix2 q k)
      = ((∑ q : Fin 64, xs q * W (ix2 (p0 q) k)) + ∑ q : Fin 64, xm q * W (ix2 (p1 q) k))
        + ∑ q : Fin 64, xd q * W (ix2 (p2 q) k) := by
  rw [sum192 fun q => cat3 xs xm xd q * W (ix2 q k)]
  simp only [cat3_p0, cat3_p1, cat3_p2]

/-- One branch's hidden layer. -/
def hidden (W0 : (⟨2, ![192, 64]⟩ : Shape).Idx → EReal) (b0 : (⟨1, ![64]⟩ : Shape).Idx → EReal) (k : Fin 64) : EReal :=
  silu ((∑ q : Fin 192, cat3 xs xm xd q * W0 (ix2 q k)) + b0 (ix1 k))

/-- One branch's output, before its last activation. -/
def branch (W0 : (⟨2, ![192, 64]⟩ : Shape).Idx → EReal) (b0 : (⟨1, ![64]⟩ : Shape).Idx → EReal)
    (W1 : (⟨2, ![64, 64]⟩ : Shape).Idx → EReal) (b1 : (⟨1, ![64]⟩ : Shape).Idx → EReal) (j : Fin 64) : EReal :=
  (∑ k : Fin 64, hidden xs xm xd W0 b0 k * W1 (ix2 k j)) + b1 (ix1 j)

/-- The gated perceptron: the layers branch activated once more, times the sigmoid of the gates branch. -/
def gate (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal) (j : Fin 64) : EReal :=
  silu (branch xs xm xd lW0 lb0 lW1 lb1 j) * Ideal.logistic (branch xs xm xd gW0 gb0 gW1 gb1 j)

/-! ## The wide form -/

/-- The two branches' hidden layers, side by side. -/
def wideHidden (Ws Wm Wd : (⟨2, ![64, 128]⟩ : Shape).Idx → EReal) (b0 : (⟨1, ![128]⟩ : Shape).Idx → EReal)
    (k : Fin 128) : EReal :=
  silu ((((∑ q : Fin 64, xs q * Ws (ix2 q k)) + ∑ q : Fin 64, xm q * Wm (ix2 q k))
    + ∑ q : Fin 64, xd q * Wd (ix2 q k)) + b0 (ix1 k))

/-- The two branches' outputs, side by side. -/
def wideOut (Ws Wm Wd : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal) (c : Fin 128) : EReal :=
  (∑ k : Fin 128, wideHidden xs xm xd Ws Wm Wd b0 k * W1 (ix2 k c)) + b1 (ix1 c)

/-- The gated perceptron from the wide outputs. -/
def wideGate (Ws Wm Wd : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal) (j : Fin 64) : EReal :=
  silu (wideOut xs xm xd Ws Wm Wd b0 W1 b1 (lo j)) * Ideal.logistic (wideOut xs xm xd Ws Wm Wd b0 W1 b1 (hi j))

end Forms

/-! ## The wide weights are the two branches' weights, fused -/

/-- What "fused" means, entry by entry: first-layer weights side by side (one 64×128 matrix per input piece), biases
    end to end, second-layer weights on the diagonal with ZERO off-diagonal blocks. -/
structure Fuses (Ws Wm Wd : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal) : Prop where
  ws_lo : ∀ q k : Fin 64, Ws (ix2 q (lo k)) = lW0 (ix2 (p0 q) k)
  ws_hi : ∀ q k : Fin 64, Ws (ix2 q (hi k)) = gW0 (ix2 (p0 q) k)
  wm_lo : ∀ q k : Fin 64, Wm (ix2 q (lo k)) = lW0 (ix2 (p1 q) k)
  wm_hi : ∀ q k : Fin 64, Wm (ix2 q (hi k)) = gW0 (ix2 (p1 q) k)
  wd_lo : ∀ q k : Fin 64, Wd (ix2 q (lo k)) = lW0 (ix2 (p2 q) k)
  wd_hi : ∀ q k : Fin 64, Wd (ix2 q (hi k)) = gW0 (ix2 (p2 q) k)
  b0_lo : ∀ k : Fin 64, b0 (ix1 (lo k)) = lb0 (ix1 k)
  b0_hi : ∀ k : Fin 64, b0 (ix1 (hi k)) = gb0 (ix1 k)
  w1_ll : ∀ k j : Fin 64, W1 (ix2 (lo k) (lo j)) = lW1 (ix2 k j)
  w1_lh : ∀ k j : Fin 64, W1 (ix2 (lo k) (hi j)) = 0
  w1_hl : ∀ k j : Fin 64, W1 (ix2 (hi k) (lo j)) = 0
  w1_hh : ∀ k j : Fin 64, W1 (ix2 (hi k) (hi j)) = gW1 (ix2 k j)
  b1_lo : ∀ j : Fin 64, b1 (ix1 (lo j)) = lb1 (ix1 j)
  b1_hi : ∀ j : Fin 64, b1 (ix1 (hi j)) = gb1 (ix1 j)

section Bridge
variable {Ws Wm Wd : (⟨2, ![64, 128]⟩ : Shape).Idx → EReal} {b0 : (⟨1, ![128]⟩ : Shape).Idx → EReal}
  {W1 : (⟨2, ![128, 128]⟩ : Shape).Idx → EReal} {b1 : (⟨1, ![128]⟩ : Shape).Idx → EReal}
  {lW0 : (⟨2, ![192, 64]⟩ : Shape).Idx → EReal} {lb0 : (⟨1, ![64]⟩ : Shape).Idx → EReal}
  {lW1 : (⟨2, ![64, 64]⟩ : Shape).Idx → EReal} {lb1 : (⟨1, ![64]⟩ : Shape).Idx → EReal}
  {gW0 : (⟨2, ![192, 64]⟩ : Shape).Idx → EReal} {gb0 : (⟨1, ![64]⟩ : Shape).Idx → EReal}
  {gW1 : (⟨2, ![64, 64]⟩ : Shape).Idx → EReal} {gb1 : (⟨1, ![64]⟩ : Shape).Idx → EReal}
  (F : Fuses Ws Wm Wd b0 W1 b1 lW0 lb0 lW1 lb1 gW0 gb0 gW1 gb1) (xs xm xd : Fin 64 → EReal)
include F

/-- The first half of the wide hidden layer is the layers branch's, -/
theorem wideHidden_lo (k : Fin 64) : wideHidden xs xm xd Ws Wm Wd b0 (lo k) = hidden xs xm xd lW0 lb0 k := by
  unfold wideHidden hidden
  rw [cat3_sum]
  simp only [F.ws_lo, F.wm_lo, F.wd_lo, F.b0_lo]

/-- the second half the gates branch's. -/
theorem wideHidden_hi (k : Fin 64) : wideHidden xs xm xd Ws Wm Wd b0 (hi k) = hidden xs xm xd gW0 gb0 k := by
  unfold wideHidden hidden
  rw [cat3_sum]
  simp only [F.ws_hi, F.wm_hi, F.wd_hi, F.b0_hi]

/-- The first half of the wide output: the gates' hidden values meet the zero block. -/
theorem wideOut_lo (j : Fin 64) : wideOut xs xm xd Ws Wm Wd b0 W1 b1 (lo j) = branch xs xm xd lW0 lb0 lW1 lb1 j := by
  unfold wideOut branch
  rw [sum128 fun k => wideHidden xs xm xd Ws Wm Wd b0 k * W1 (ix2 k (lo j))]
  simp only [wideHidden_lo F, wideHidden_hi F, F.w1_ll, F.w1_hl, F.b1_lo, mul_zero, Finset.sum_const_zero, add_zero]

/-- The second half: the layers' hidden values meet the zero block. -/
theorem wideOut_hi (j : Fin 64) : wideOut xs xm xd Ws Wm Wd b0 W1 b1 (hi j) = branch xs xm xd gW0 gb0 gW1 gb1 j := by
  unfold wideOut branch
  rw [sum128 fun k => wideHidden xs xm xd Ws Wm Wd b0 k * W1 (ix2 k (hi j))]
  simp only [wideHidden_lo F, wideHidden_hi F, F.w1_lh, F.w1_hh, F.b1_hi, mul_zero, Finset.sum_const_zero, zero_add]

/-- The wide computation is the gated perceptron. -/
theorem wideGate_eq (j : Fin 64) :
    wideGate xs xm xd Ws Wm Wd b0 W1 b1 j = gate xs xm xd lW0 lb0 lW1 lb1 gW0 gb0 gW1 gb1 j := by
  unfold wideGate gate
  rw [wideOut_lo F, wideOut_hi F]

end Bridge

/-! ## One message-passing step on one edge

The updated edge features are the edge's own features plus the edge perceptron of (source, edge, destination); the
message is the node perceptron of (source, UPDATED edge, destination). -/

section Layer
variable (xs xm xd : Fin 64 → EReal)

/-- The updated edge row, wide form. -/
def wideEnew (eWs eWm eWd : (⟨2, ![64, 128]⟩ : Shape).Idx → EReal) (eb0 : (⟨1, ![128]⟩ : Shape).Idx → EReal)
    (eW1 : (⟨2, ![128, 128]⟩ : Shape).Idx → EReal) (eb1 : (⟨1, ![128]⟩ : Shape).Idx → EReal) (j : Fin 64) : EReal :=
  xm j + wideGate xs xm xd eWs eWm eWd eb0 eW1 eb1 j

/-- The message row, wide form. -/
def wideMsg (eWs eWm eWd : (⟨2, ![64, 128]⟩ : Shape).Idx → EReal) (eb0 : (⟨1, ![128]⟩ : Shape).Idx → EReal)
    (eW1 : (⟨2, ![128, 128]⟩ : Shape).Idx → EReal) (eb1 : (⟨1, ![128]⟩ : Shape).Idx → EReal)
    (nWs nWm nWd : (⟨2, ![64, 128]⟩ : Shape).Idx → EReal) (nb0 : (⟨1, ![128]⟩ : Shape).Idx → EReal)
    (nW1 : (⟨2, ![128, 128]⟩ : Shape).Idx → EReal) (nb1 : (⟨1, ![128]⟩ : Shape).Idx → EReal) (j : Fin 64) : EReal :=
  wideGate xs (wideEnew xs xm xd eWs eWm eWd eb0 eW1 eb1) xd nWs nWm nWd nb0 nW1 nb1 j

/-- The updated edge row, the reference's form. -/
def enew (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal) (j : Fin 64) : EReal :=
  xm j + gate xs xm xd lW0 lb0 lW1 lb1 gW0 gb0 gW1 gb1 j

/-- The message row, the reference's form. -/
def msg (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal)
    (nlW0 : (⟨2, ![192, 64]⟩ : Shape).Idx → EReal) (nlb0 : (⟨1, ![64]⟩ : Shape).Idx → EReal)
    (nlW1 : (⟨2, ![64, 64]⟩ : Shape).Idx → EReal) (nlb1 : (⟨1, ![64]⟩ : Shape).Idx → EReal)
    (ngW0 : (⟨2, ![192, 64]⟩ : Shape).Idx → EReal) (ngb0 : (⟨1, ![64]⟩ : Shape).Idx → EReal)
    (ngW1 : (⟨2, ![64, 64]⟩ : Shape).Idx → EReal) (ngb1 : (⟨1, ![64]⟩ : Shape).Idx → EReal) (j : Fin 64) : EReal :=
  gate xs (enew xs xm xd lW0 lb0 lW1 lb1 gW0 gb0 gW1 gb1) xd nlW0 nlb0 nlW1 nlb1 ngW0 ngb0 ngW1 ngb1 j

variable {eWs eWm eWd : (⟨2, ![64, 128]⟩ : Shape).Idx → EReal} {eb0 : (⟨1, ![128]⟩ : Shape).Idx → EReal}
  {eW1 : (⟨2, ![128, 128]⟩ : Shape).Idx → EReal} {eb1 : (⟨1, ![128]⟩ : Shape).Idx → EReal}
  {lW0 : (⟨2, ![192, 64]⟩ : Shape).Idx → EReal} {lb0 : (⟨1, ![64]⟩ : Shape).Idx → EReal}
  {lW1 : (⟨2, ![64, 64]⟩ : Shape).Idx → EReal} {lb1 : (⟨1, ![64]⟩ : Shape).Idx → EReal}
  {gW0 : (⟨2, ![192, 64]⟩ : Shape).Idx → EReal} {gb0 : (⟨1, ![64]⟩ : Shape).Idx → EReal}
  {gW1 : (⟨2, ![64, 64]⟩ : Shape).Idx → EReal} {gb1 : (⟨1, ![64]⟩ : Shape).Idx → EReal}
  {nWs nWm nWd : (⟨2, ![64, 128]⟩ : Shape).Idx → EReal} {nb0 : (⟨1, ![128]⟩ : Shape).Idx → EReal}
  {nW1 : (⟨2, ![128, 128]⟩ : Shape).Idx → EReal} {nb1 : (⟨1, ![128]⟩ : Shape).Idx → EReal}
  {nlW0 : (⟨2, ![192, 64]⟩ : Shape).Idx → EReal} {nlb0 : (⟨1, ![64]⟩ : Shape).Idx → EReal}
  {nlW1 : (⟨2, ![64, 64]⟩ : Shape).Idx → EReal} {nlb1 : (⟨1, ![64]⟩ : Shape).Idx → EReal}
  {ngW0 : (⟨2, ![192, 64]⟩ : Shape).Idx → EReal} {ngb0 : (⟨1, ![64]⟩ : Shape).Idx → EReal}
  {ngW1 : (⟨2, ![64, 64]⟩ : Shape).Idx → EReal} {ngb1 : (⟨1, ![64]⟩ : Shape).Idx → EReal}

/-- With fused edge weights the two forms of the updated edge row agree, -/
theorem wideEnew_eq (Fe : Fuses eWs eWm eWd eb0 eW1 eb1 lW0 lb0 lW1 lb1 gW0 gb0 gW1 gb1) :
    wideEnew xs xm xd eWs eWm eWd eb0 eW1 eb1 = enew xs xm xd lW0 lb0 lW1 lb1 gW0 gb0 gW1 gb1 :=
  funext fun j => by unfold wideEnew enew; rw [wideGate_eq Fe]

/-- and with fused node weights too, so do the two forms of the message row. -/
theorem wideMsg_eq (Fe : Fuses eWs eWm eWd eb0 eW1 eb1 lW0 lb0 lW1 lb1 gW0 gb0 gW1 gb1)
    (Fn : Fuses nWs nWm nWd nb0 nW1 nb1 nlW0 nlb0 nlW1 nlb1 ngW0 ngb0 ngW1 ngb1) :
    wideMsg xs xm xd eWs eWm eWd eb0 eW1 eb1 nWs nWm nWd nb0 nW1 nb1
      = msg xs xm xd lW0 lb0 lW1 lb1 gW0 gb0 gW1 gb1 nlW0 nlb0 nlW1 nlb1 ngW0 ngb0 ngW1 ngb1 :=
  funext fun j => by unfold wideMsg msg; rw [wideEnew_eq xs xm xd Fe, wideGate_eq Fn]

end Layer

/-! ## Whole arrays: 480000 edges -/

/-- Row r of an [480000, 64] array. -/
def rowOf (A : (⟨2, ![480000, 64]⟩ : Shape).Idx → EReal) (r : Fin 480000) : Fin 64 → EReal := fun q => A (ix2 r q)

/-- Either half of 128 columns. -/
theorem lo_or_hi (c : Fin 128) : (∃ j : Fin 64, c = lo j) ∨ ∃ j : Fin 64, c = hi j := by
  by_cases h : c.val < 64
  · exact Or.inl ⟨⟨c.val, h⟩, Fin.ext rfl⟩
  · exact Or.inr ⟨⟨c.val - 64, by have := c.isLt; omega⟩, Fin.ext (by show c.val = 64 + (c.val - 64); omega)⟩

section Arrays
variable (hs ef hd : (⟨2, ![480000, 64]⟩ : Shape).Idx → EReal)

/-- The kernel's [480000, 128] output at (r, c): row r's updated edge features in columns 0–63, its message in 64–127. -/
def combinedAt (eWs eWm eWd : (⟨2, ![64, 128]⟩ : Shape).Idx → EReal) (eb0 : (⟨1, ![128]⟩ : Shape).Idx → EReal)
    (eW1 : (⟨2, ![128, 128]⟩ : Shape).Idx → EReal) (eb1 : (⟨1, ![128]⟩ : Shape).Idx → EReal)
    (nWs nWm nWd : (⟨2, ![64, 128]⟩ : Shape).Idx → EReal) (nb0 : (⟨1, ![128]⟩ : Shape).Idx → EReal)
    (nW1 : (⟨2, ![128, 128]⟩ : Shape).Idx → EReal) (nb1 : (⟨1, ![128]⟩ : Shape).Idx → EReal)
    (r : Fin 480000) (c : Fin 128) : EReal :=
  if h : c.val < 64 then wideEnew (rowOf hs r) (rowOf ef r) (rowOf hd r) eWs eWm eWd eb0 eW1 eb1 ⟨c.val, h⟩
  else wideMsg (rowOf hs r) (rowOf ef r) (rowOf hd r) eWs eWm eWd eb0 eW1 eb1 nWs nWm nWd nb0 nW1 nb1
    ⟨c.val - 64, by have := c.isLt; omega⟩

/-- The same as a function of the array index. -/
def combined (eWs eWm eWd : (⟨2, ![64, 128]⟩ : Shape).Idx → EReal) (eb0 : (⟨1, ![128]⟩ : Shape).Idx → EReal)
    (eW1 : (⟨2, ![128, 128]⟩ : Shape).Idx → EReal) (eb1 : (⟨1, ![128]⟩ : Shape).Idx → EReal)
    (nWs nWm nWd : (⟨2, ![64, 128]⟩ : Shape).Idx → EReal) (nb0 : (⟨1, ![128]⟩ : Shape).Idx → EReal)
    (nW1 : (⟨2, ![128, 128]⟩ : Shape).Idx → EReal) (nb1 : (⟨1, ![128]⟩ : Shape).Idx → EReal) :
    (⟨2, ![480000, 128]⟩ : Shape).Idx → EReal :=
  fun i => combinedAt hs ef hd eWs eWm eWd eb0 eW1 eb1 nWs nWm nWd nb0 nW1 nb1
    ⟨(i 0).val, (i 0).isLt⟩ ⟨(i 1).val, (i 1).isLt⟩

variable {eWs eWm eWd : (⟨2, ![64, 128]⟩ : Shape).Idx → EReal} {eb0 : (⟨1, ![128]⟩ : Shape).Idx → EReal}
  {eW1 : (⟨2, ![128, 128]⟩ : Shape).Idx → EReal} {eb1 : (⟨1, ![128]⟩ : Shape).Idx → EReal}
  {nWs nWm nWd : (⟨2, ![64, 128]⟩ : Shape).Idx → EReal} {nb0 : (⟨1, ![128]⟩ : Shape).Idx → EReal}
  {nW1 : (⟨2, ![128, 128]⟩ : Shape).Idx → EReal} {nb1 : (⟨1, ![128]⟩ : Shape).Idx → EReal}

theorem combinedAt_lo (r : Fin 480000) (j : Fin 64) :
    combinedAt hs ef hd eWs eWm eWd eb0 eW1 eb1 nWs nWm nWd nb0 nW1 nb1 r (lo j)
      = wideEnew (rowOf hs r) (rowOf ef r) (rowOf hd r) eWs eWm eWd eb0 eW1 eb1 j :=
  dif_pos (show (lo j).val < 64 from j.isLt)

theorem combinedAt_hi (r : Fin 480000) (j : Fin 64) :
    combinedAt hs ef hd eWs eWm eWd eb0 eW1 eb1 nWs nWm nWd nb0 nW1 nb1 r (hi j)
      = wideMsg (rowOf hs r) (rowOf ef r) (rowOf hd r) eWs eWm eWd eb0 eW1 eb1 nWs nWm nWd nb0 nW1 nb1 j := by
  unfold combinedAt
  rw [dif_neg (show ¬(hi j).val < 64 by show ¬(64 + j.val < 64); omega)]
  exact congrArg _ (Fin.ext (by show 64 + j.val - 64 = j.val; omega))

/-- The updated edge features of every edge, the reference's form. -/
def enewArr (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal) :
    (⟨2, ![480000, 64]⟩ : Shape).Idx → EReal :=
  fun i => enew (rowOf hs ⟨(i 0).val, (i 0).isLt⟩) (rowOf ef ⟨(i 0).val, (i 0).isLt⟩) (rowOf hd ⟨(i 0).val, (i 0).isLt⟩)
    lW0 lb0 lW1 lb1 gW0 gb0 gW1 gb1 ⟨(i 1).val, (i 1).isLt⟩

/-- The message of every edge, the reference's form. -/
def msgArr (lW0 : (⟨2, ![192, 64]⟩ : Shape).Idx → EReal) (lb0 : (⟨1, ![64]⟩ : Shape).Idx → EReal)
    (lW1 : (⟨2, ![64, 64]⟩ : Shape).Idx → EReal) (lb1 : (⟨1, ![64]⟩ : Shape).Idx → EReal)
    (gW0 : (⟨2, ![192, 64]⟩ : Shape).Idx → EReal) (gb0 : (⟨1, ![64]⟩ : Shape).Idx → EReal)
    (gW1 : (⟨2, ![64, 64]⟩ : Shape).Idx → EReal) (gb1 : (⟨1, ![64]⟩ : Shape).Idx → EReal)
    (nlW0 : (⟨2, ![192, 64]⟩ : Shape).Idx → EReal) (nlb0 : (⟨1, ![64]⟩ : Shape).Idx → EReal)
    (nlW1 : (⟨2, ![64, 64]⟩ : Shape).Idx → EReal) (nlb1 : (⟨1, ![64]⟩ : Shape).Idx → EReal)
    (ngW0 : (⟨2, ![192, 64]⟩ : Shape).Idx → EReal) (ngb0 : (⟨1, ![64]⟩ : Shape).Idx → EReal)
    (ngW1 : (⟨2, ![64, 64]⟩ : Shape).Idx → EReal) (ngb1 : (⟨1, ![64]⟩ : Shape).Idx → EReal) :
    (⟨2, ![480000, 64]⟩ : Shape).Idx → EReal :=
  fun i => msg (rowOf hs ⟨(i 0).val, (i 0).isLt⟩) (rowOf ef ⟨(i 0).val, (i 0).isLt⟩) (rowOf hd ⟨(i 0).val, (i 0).isLt⟩)
    lW0 lb0 lW1 lb1 gW0 gb0 gW1 gb1 nlW0 nlb0 nlW1 nlb1 ngW0 ngb0 ngW1 ngb1 ⟨(i 1).val, (i 1).isLt⟩

end Arrays

end Cert.GatedMP

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.KernelRow.lean ====
/-
  What one block row of the kernel's output holds, as the wide gated perceptron of that row of the three edge blocks.

  The body's arithmetic is, twice over, a "dense pair": three matrix products into zero accumulators (source, edge and
  destination rows against their 64×128 weights) summed left to right, a bias row added, silu, one more product against
  a 128×128 matrix, a bias row added. Read at (p, c) that is Spec's `wideOut` of row p of the three inputs: each product
  into a zero accumulator is the plain sum over the contracted index, a bias row spread down the rows is the bias at the
  column, and a narrowing of the float format is the identity on extended reals. The two 64-column halves of that value,
  the first activated once more, give the gate; the edge block plus the gate is the updated edge block, which is also the
  middle input of the second dense pair; and the stored block is the updated edges and the messages side by side.
-/
import proofs.«110270_j60447369724157_2_alg».proof.Proof.Gen.KernelIdeal.Skeleton
import proofs.«110270_j60447369724157_2_alg».proof.Proof.Spec
import proofs.«110270_j60447369724157_2_alg».proof.Proof.LibDense
import Idealize.ShloMosaic.Lib.ValueLayout

noncomputable section

namespace Cert.KernelIdeal.RowValue

open Cert.KernelIdeal Cert.KernelIdeal.Gen
open Idealize.ShloMosaic Idealize.ShloMosaic.ValueIdx Cert.GatedMP Cert.LibDense

/-! ## The dense pair as a vector program -/

/-- The zero accumulator every product starts from. -/
def zeroAcc : FVec Ideal S6000x128 .f32 := constant (F := Ideal) S6000x128 .f32 0x00000000#32

/-- A 128-vector of biases as a row, spread down the 6000 rows of a block. -/
def biasRows (b : FVec Ideal S128 .f32) : FVec Ideal S6000x128 .f32 :=
  broadcastTo S6000x128 (shapeCast S1x128 (shapeCast S128 b shapeCasts_S128_S128) shapeCasts_S128_S1x128)
    broadcasts_S1x128_S6000x128

/-- The first layer before its activation: three products summed left to right, plus the bias rows. -/
def preVec (l1 l2 l3 : FVec Ideal S6000x64 .bf16) (w1 w2 w3 : FVec Ideal S64x128 .bf16) (b0v : FVec Ideal S128 .f32) :
    FVec Ideal S6000x128 .f32 :=
  addf (addf (addf (matmul dot_S6000x64_S64x128_S6000x128_1_0_0_1_n_n none l1 w1 zeroAcc)
    (matmul dot_S6000x64_S64x128_S6000x128_1_0_0_1_n_n none l2 w2 zeroAcc))
    (matmul dot_S6000x64_S64x128_S6000x128_1_0_0_1_n_n none l3 w3 zeroAcc)) (biasRows b0v)

/-- The dense pair: silu of the first layer, narrowed, times the second matrix, plus its bias rows. -/
def wideVec (l1 l2 l3 : FVec Ideal S6000x64 .bf16) (w1 w2 w3 : FVec Ideal S64x128 .bf16) (b0v : FVec Ideal S128 .f32)
    (W1v : FVec Ideal S128x128 .bf16) (b1v : FVec Ideal S128 .f32) : FVec Ideal S6000x128 .f32 :=
  addf (matmul dot_S6000x128_S128x128_S6000x128_1_0_0_1_n_n none
      (truncf .bf16 (mulf (preVec l1 l2 l3 w1 w2 w3 b0v) (logistic (preVec l1 l2 l3 w1 w2 w3 b0v))) bitsLt_bf16_f32)
      W1v zeroAcc) (biasRows b1v)

/-- The gate from a 128-wide value: silu of its first 64 columns times the sigmoid of its last 64. -/
def gateVec (w : FVec Ideal S6000x128 .f32) : FVec Ideal S6000x64 .f32 :=
  mulf (mulf (extractStridedSlice S6000x64 ![0, 0] w slices_S6000x128_o0_0_S6000x64)
      (logistic (extractStridedSlice S6000x64 ![0, 0] w slices_S6000x128_o0_0_S6000x64)))
    (logistic (extractStridedSlice S6000x64 ![0, 64] w slices_S6000x128_o0_64_S6000x64))

/-! ## Read at an index -/

/-- The bias rows at (p, c): the bias at c. -/
theorem biasRows_apply (b : FVec Ideal S128 .f32) (p : Fin 6000) (c : Fin 128) : biasRows b (ix2 p c) = b (ix1 c) := by
  unfold biasRows
  refine (broadcastTo_1b_ab_apply _ broadcasts_S1x128_S6000x128 p c).trans ?_
  rw [shapeCast_self]
  exact shapeCast_a_1a_apply b shapeCasts_S128_S1x128 0 c

/-- The first layer before its activation, at (p, k). -/
theorem preVec_apply (l1 l2 l3 : FVec Ideal S6000x64 .bf16) (w1 w2 w3 : FVec Ideal S64x128 .bf16)
    (b0v : FVec Ideal S128 .f32) (p : Fin 6000) (k : Fin 128) :
    preVec l1 l2 l3 w1 w2 w3 b0v (ix2 p k)
      = (((∑ q : Fin 64, l1 (ix2 p q) * w1 (ix2 q k)) + ∑ q : Fin 64, l2 (ix2 p q) * w2 (ix2 q k))
        + ∑ q : Fin 64, l3 (ix2 p q) * w3 (ix2 q k)) + b0v (ix1 k) :=
  congrArg₂ (· + ·)
    (congrArg₂ (· + ·)
      (congrArg₂ (· + ·)
        (matmul_zero_plain dot_S6000x64_S64x128_S6000x128_1_0_0_1_n_n_wf none l1 w1 p k)
        (matmul_zero_plain dot_S6000x64_S64x128_S6000x128_1_0_0_1_n_n_wf none l2 w2 p k))
      (matmul_zero_plain dot_S6000x64_S64x128_S6000x128_1_0_0_1_n_n_wf none l3 w3 p k))
    (biasRows_apply b0v p k)

/-- The dense pair at (p, c) is the wide output of row p of its three inputs. -/
theorem wideVec_apply (l1 l2 l3 : FVec Ideal S6000x64 .bf16) (w1 w2 w3 : FVec Ideal S64x128 .bf16)
    (b0v : FVec Ideal S128 .f32) (W1v : FVec Ideal S128x128 .bf16) (b1v : FVec Ideal S128 .f32)
    (p : Fin 6000) (c : Fin 128) :
    wideVec l1 l2 l3 w1 w2 w3 b0v W1v b1v (ix2 p c)
      = wideOut (fun q => l1 (ix2 p q)) (fun q => l2 (ix2 p q)) (fun q => l3 (ix2 p q)) w1 w2 w3 b0v W1v b1v c := by
  unfold wideVec wideOut
  refine congrArg₂ (· + ·) ?_ (biasRows_apply b1v p c)
  refine (matmul_zero_plain dot_S6000x128_S128x128_S6000x128_1_0_0_1_n_n_wf none _ W1v p c).trans ?_
  refine Finset.sum_congr rfl fun k _ => congrArg (· * W1v (ix2 k c)) ?_
  unfold wideHidden
  exact congrArg silu (preVec_apply l1 l2 l3 w1 w2 w3 b0v p k)

/-- The gate at (p, j), from the value's columns j and 64 + j. -/
theorem gateVec_apply (w : FVec Ideal S6000x128 .f32) (p : Fin 6000) (j : Fin 64) :
    gateVec w (ix2 p j) = silu (w (ix2 p (lo j))) * Ideal.logistic (w (ix2 p (hi j))) := by
  have e0 : extractStridedSlice S6000x64 ![0, 0] w slices_S6000x128_o0_0_S6000x64 (ix2 p j) = w (ix2 p (lo j)) :=
    slice2_axis1_apply 0 w slices_S6000x128_o0_0_S6000x64 p j (lo j) (Nat.zero_add _).symm
  have e1 : extractStridedSlice S6000x64 ![0, 64] w slices_S6000x128_o0_64_S6000x64 (ix2 p j) = w (ix2 p (hi j)) :=
    slice2_axis1_apply 64 w slices_S6000x128_o0_64_S6000x64 p j (hi j) rfl
  show (extractStridedSlice S6000x64 ![0, 0] w slices_S6000x128_o0_0_S6000x64 (ix2 p j)
      * Ideal.logistic (extractStridedSlice S6000x64 ![0, 0] w slices_S6000x128_o0_0_S6000x64 (ix2 p j)))
      * Ideal.logistic (extractStridedSlice S6000x64 ![0, 64] w slices_S6000x128_o0_64_S6000x64 (ix2 p j)) = _
  rw [e0, e1]
  rfl

/-! ## The printed payloads are these programs -/

/-- The first dense pair of the body, on the loaded blocks. -/
theorem pay4_eq (x0 x1 x2 : Vec Ideal S6000x64 .f32) (x3 x4 x5 : Vec Ideal S64x128 .bf16) (x6 : Vec Ideal S128 .f32)
    (x7 : Vec Ideal S128x128 .bf16) (x8 : Vec Ideal S128 .f32) :
    k0_pay4 x0 x1 x2 x3 x4 x5 x6 x7 x8
      = wideVec (k0_pay2 x0) (truncf .bf16 x2 bitsLt_bf16_f32) (k0_pay3 x1)
          (shapeCast S64x128 x3 shapeCasts_S64x128_S64x128) (shapeCast S64x128 x4 shapeCasts_S64x128_S64x128)
          (shapeCast S64x128 x5 shapeCasts_S64x128_S64x128) x6
          (shapeCast S128x128 x7 shapeCasts_S128x128_S128x128) x8 := rfl

/-- The stored block: the updated edge block and the gate of the second dense pair, side by side. -/
theorem pay1_eq (v4 : Vec Ideal S6000x64 .f32) (v5 v6 : FVec Ideal S6000x64 .bf16) (v37 v38 : FVec Ideal S6000x64 .f32)
    (v43 v46 v50 : Vec Ideal S64x128 .bf16) (v54 : Vec Ideal S128 .f32) (v62 : Vec Ideal S128x128 .bf16)
    (v65 : Vec Ideal S128 .f32) :
    k0_pay1 v4 v5 v6 v37 v38 v43 v46 v50 v54 v62 v65
      = concatenate S6000x128 1
          [⟨S6000x64, addf v4 (mulf v37 (logistic v38))⟩,
           ⟨S6000x64, gateVec (wideVec v5 (truncf .bf16 (addf v4 (mulf v37 (logistic v38))) bitsLt_bf16_f32) v6
              (shapeCast S64x128 v43 shapeCasts_S64x128_S64x128) (shapeCast S64x128 v46 shapeCasts_S64x128_S64x128)
              (shapeCast S64x128 v50 shapeCasts_S64x128_S64x128) v54
              (shapeCast S128x128 v62 shapeCasts_S128x128_S128x128) v65)⟩]
          concatenates_S6000x64_S6000x64_S6000x128_d1 := rfl

/-! ## One row of the stored block -/

section Row
variable (x0 x1 x2 : Vec Ideal S6000x64 .f32) (x3 x4 x5 : Vec Ideal S64x128 .bf16) (x6 : Vec Ideal S128 .f32)
  (x7 : Vec Ideal S128x128 .bf16) (x8 : Vec Ideal S128 .f32)
  (x9 x10 x11 : Vec Ideal S64x128 .bf16) (x12 : Vec Ideal S128 .f32) (x13 : Vec Ideal S128x128 .bf16)
  (x14 : Vec Ideal S128 .f32)

/-- The first dense pair at (p, c): the wide output of row p of (source, edge, destination). -/
theorem pay4_apply (p : Fin 6000) (c : Fin 128) :
    k0_pay4 x0 x1 x2 x3 x4 x5 x6 x7 x8 (ix2 p c)
      = wideOut (fun q => x0 (ix2 p q)) (fun q => x2 (ix2 p q)) (fun q => x1 (ix2 p q)) x3 x4 x5 x6 x7 x8 c := by
  rw [pay4_eq]
  refine (wideVec_apply _ _ _ _ _ _ x6 _ x8 p c).trans ?_
  unfold k0_pay2 k0_pay3
  simp only [shapeCast_self]
  rfl

/-- The updated edge block at (p, j). -/
theorem enew_apply (p : Fin 6000) (j : Fin 64) :
    addf x2 (mulf (k0_pay5 x0 x1 x2 x3 x4 x5 x6 x7 x8) (logistic (k0_pay6 x0 x1 x2 x3 x4 x5 x6 x7 x8))) (ix2 p j)
      = wideEnew (fun q => x0 (ix2 p q)) (fun q => x2 (ix2 p q)) (fun q => x1 (ix2 p q)) x3 x4 x5 x6 x7 x8 j := by
  unfold wideEnew wideGate
  rw [← pay4_apply x0 x1 x2 x3 x4 x5 x6 x7 x8 p (lo j), ← pay4_apply x0 x1 x2 x3 x4 x5 x6 x7 x8 p (hi j)]
  exact congrArg (x2 (ix2 p j) + ·) (gateVec_apply (k0_pay4 x0 x1 x2 x3 x4 x5 x6 x7 x8) p j)

/-- The whole stored block, as the printed body composes it. -/
abbrev stored : FVec Ideal S6000x128 .f32 :=
  k0_pay1 x2 (k0_pay2 x0) (k0_pay3 x1) (k0_pay5 x0 x1 x2 x3 x4 x5 x6 x7 x8) (k0_pay6 x0 x1 x2 x3 x4 x5 x6 x7 x8)
    x9 x10 x11 x12 x13 x14

/-- Its first 64 columns: the updated edge row. -/
theorem stored_lo (p : Fin 6000) (j : Fin 64) :
    stored x0 x1 x2 x3 x4 x5 x6 x7 x8 x9 x10 x11 x12 x13 x14 (ix2 p (lo j))
      = wideEnew (fun q => x0 (ix2 p q)) (fun q => x2 (ix2 p q)) (fun q => x1 (ix2 p q)) x3 x4 x5 x6 x7 x8 j := by
  unfold stored
  rw [pay1_eq]
  refine (concat_cols_apply (a := 64) (b := 64) rfl _ _ concatenates_S6000x64_S6000x64_S6000x128_d1 p (lo j)).trans ?_
  refine (dif_pos (show (lo j).val < 64 from j.isLt)).trans ?_
  exact enew_apply x0 x1 x2 x3 x4 x5 x6 x7 x8 p j

/-- Its last 64 columns: the message row. -/
theorem stored_hi (p : Fin 6000) (j : Fin 64) :
    stored x0 x1 x2 x3 x4 x5 x6 x7 x8 x9 x10 x11 x12 x13 x14 (ix2 p (hi j))
      = wideMsg (fun q => x0 (ix2 p q)) (fun q => x2 (ix2 p q)) (fun q => x1 (ix2 p q)) x3 x4 x5 x6 x7 x8
          x9 x10 x11 x12 x13 x14 j := by
  unfold stored
  rw [pay1_eq]
  refine (concat_cols_apply (a := 64) (b := 64) rfl _ _ concatenates_S6000x64_S6000x64_S6000x128_d1 p (hi j)).trans ?_
  refine (dif_neg (show ¬(hi j).val < 64 by show ¬(64 + j.val < 64); omega)).trans ?_
  have ej : (⟨(hi j).val - 64, by show 64 + j.val - 64 < 64; have := j.isLt; omega⟩ : Fin 64) = j :=
    Fin.ext (by show 64 + j.val - 64 = j.val; omega)
  rw [ej]
  refine (gateVec_apply _ p j).trans ?_
  unfold wideMsg wideGate
  rw [wideVec_apply, wideVec_apply]
  have em : (fun q : Fin 64 => (truncf .bf16 (addf x2 (mulf (k0_pay5 x0 x1 x2 x3 x4 x5 x6 x7 x8)
        (logistic (k0_pay6 x0 x1 x2 x3 x4 x5 x6 x7 x8)))) bitsLt_bf16_f32 : FVec Ideal S6000x64 .bf16) (ix2 p q))
      = wideEnew (fun q => x0 (ix2 p q)) (fun q => x2 (ix2 p q)) (fun q => x1 (ix2 p q)) x3 x4 x5 x6 x7 x8 :=
    funext fun q => enew_apply x0 x1 x2 x3 x4 x5 x6 x7 x8 p q
  rw [em]
  unfold k0_pay2 k0_pay3
  simp only [shapeCast_self]
  rfl

end Row

end Cert.KernelIdeal.RowValue

end
-- ==== Proof.Halves.lean ====
/-
  Two equal halves joined, read in each half.

  Two [n, 64] matrices side by side make an [n, 128] matrix whose column `lo k` (= k) is the first matrix's column k and
  whose column `hi k` (= 64 + k) is the second's; two [64, n] matrices stacked make a [128, n] matrix whose rows split the
  same way; two 64-vectors end to end make a 128-vector whose entries split the same way. Each is the library's reading of
  a two-piece concatenation at an index whose joined coordinate falls in the first piece (same coordinates) or in the
  second (the first extent less).
-/
import proofs.«110270_j60447369724157_2_alg».proof.Proof.Spec
import proofs.«110270_j60447369724157_2_alg».proof.Proof.LibDense

noncomputable section

namespace Cert.GatedMP

open Idealize.ShloMosaic Idealize.ShloMosaic.ValueIdx Cert.LibDense

/-- 64 + k less 64 is k. -/
theorem hi_sub (k : Fin 64) (h : (hi k).val - 64 < 64) : (⟨(hi k).val - 64, h⟩ : Fin 64) = k :=
  Fin.ext (by show 64 + k.val - 64 = k.val; omega)

theorem lo_lt (k : Fin 64) : (lo k).val < 64 := k.isLt
theorem hi_not_lt (k : Fin 64) : ¬(hi k).val < 64 := by show ¬(64 + k.val < 64); omega

section
variable {α : Type}

/-- Side by side, first half. -/
theorem cols_lo {n : Nat} (x y : (⟨2, ![n, 64]⟩ : Shape).Idx → α)
    (h : Shape.Concatenates [(⟨2, ![n, 64]⟩ : Shape), ⟨2, ![n, 64]⟩] ⟨2, ![n, 128]⟩ 1) (r : Fin n) (k : Fin 64) :
    concatenate (⟨2, ![n, 128]⟩ : Shape) 1 [⟨⟨2, ![n, 64]⟩, x⟩, ⟨⟨2, ![n, 64]⟩, y⟩] h (ix2 r (lo k)) = x (ix2 r k) :=
  (concat_cols_apply (a := 64) (b := 64) rfl x y h r (lo k)).trans (dif_pos (lo_lt k))

/-- Side by side, second half. -/
theorem cols_hi {n : Nat} (x y : (⟨2, ![n, 64]⟩ : Shape).Idx → α)
    (h : Shape.Concatenates [(⟨2, ![n, 64]⟩ : Shape), ⟨2, ![n, 64]⟩] ⟨2, ![n, 128]⟩ 1) (r : Fin n) (k : Fin 64) :
    concatenate (⟨2, ![n, 128]⟩ : Shape) 1 [⟨⟨2, ![n, 64]⟩, x⟩, ⟨⟨2, ![n, 64]⟩, y⟩] h (ix2 r (hi k)) = y (ix2 r k) := by
  refine ((concat_cols_apply (a := 64) (b := 64) rfl x y h r (hi k)).trans (dif_neg (hi_not_lt k))).trans ?_
  rw [hi_sub]

/-- Two matrices stacked along axis 0, read at (k, r): the first at (k, r) when k is below its height, the second at
    (k − a, r) otherwise. -/
theorem concat_rows_apply {n a b c : Nat} (hc : a + b = c)
    (x : (⟨2, ![a, n]⟩ : Shape).Idx → α) (y : (⟨2, ![b, n]⟩ : Shape).Idx → α)
    (h : Shape.Concatenates [(⟨2, ![a, n]⟩ : Shape), ⟨2, ![b, n]⟩] ⟨2, ![c, n]⟩ 0) (k : Fin c) (r : Fin n) :
    concatenate (⟨2, ![c, n]⟩ : Shape) 0 [⟨⟨2, ![a, n]⟩, x⟩, ⟨⟨2, ![b, n]⟩, y⟩] h (ix2 k r)
      = if hk : k.val < a then x (ix2 ⟨k.val, hk⟩ r) else y (ix2 ⟨k.val - a, by have := k.isLt; omega⟩ r) := by
  by_cases hk : k.val < a
  · rw [dif_pos hk]
    exact concatenate_pair_apply_left 0 x y h (ix2 k r) rfl (ix2 ⟨k.val, hk⟩ r)
      (fun d => by match d with | ⟨0, _⟩ => rfl | ⟨1, _⟩ => rfl)
  · rw [dif_neg hk]
    refine concatenate_pair_apply_right 0 x y h (ix2 k r) rfl rfl (ix2 ⟨k.val - a, by have := k.isLt; omega⟩ r)
      (fun d hd => by
        match d with
        | ⟨0, _⟩ => exact absurd rfl hd
        | ⟨1, _⟩ => rfl) ?_
    show k.val - a + a = k.val
    omega

/-- Stacked, first half. -/
theorem rows_lo {n : Nat} (x y : (⟨2, ![64, n]⟩ : Shape).Idx → α)
    (h : Shape.Concatenates [(⟨2, ![64, n]⟩ : Shape), ⟨2, ![64, n]⟩] ⟨2, ![128, n]⟩ 0) (k : Fin 64) (r : Fin n) :
    concatenate (⟨2, ![128, n]⟩ : Shape) 0 [⟨⟨2, ![64, n]⟩, x⟩, ⟨⟨2, ![64, n]⟩, y⟩] h (ix2 (lo k) r) = x (ix2 k r) :=
  (concat_rows_apply (a := 64) (b := 64) rfl x y h (lo k) r).trans (dif_pos (lo_lt k))

/-- Stacked, second half. -/
theorem rows_hi {n : Nat} (x y : (⟨2, ![64, n]⟩ : Shape).Idx → α)
    (h : Shape.Concatenates [(⟨2, ![64, n]⟩ : Shape), ⟨2, ![64, n]⟩] ⟨2, ![128, n]⟩ 0) (k : Fin 64) (r : Fin n) :
    concatenate (⟨2, ![128, n]⟩ : Shape) 0 [⟨⟨2, ![64, n]⟩, x⟩, ⟨⟨2, ![64, n]⟩, y⟩] h (ix2 (hi k) r) = y (ix2 k r) := by
  refine ((concat_rows_apply (a := 64) (b := 64) rfl x y h (hi k) r).trans (dif_neg (hi_not_lt k))).trans ?_
  rw [hi_sub]

/-- Two vectors end to end, read at k. -/
theorem concat_vec_apply {a b c : Nat} (hc : a + b = c)
    (x : (⟨1, ![a]⟩ : Shape).Idx → α) (y : (⟨1, ![b]⟩ : Shape).Idx → α)
    (h : Shape.Concatenates [(⟨1, ![a]⟩ : Shape), ⟨1, ![b]⟩] ⟨1, ![c]⟩ 0) (k : Fin c) :
    concatenate (⟨1, ![c]⟩ : Shape) 0 [⟨⟨1, ![a]⟩, x⟩, ⟨⟨1, ![b]⟩, y⟩] h (ix1 k)
      = if hk : k.val < a then x (ix1 ⟨k.val, hk⟩) else y (ix1 ⟨k.val - a, by have := k.isLt; omega⟩) := by
  by_cases hk : k.val < a
  · rw [dif_pos hk]
    exact concatenate_pair_apply_left 0 x y h (ix1 k) rfl (ix1 ⟨k.val, hk⟩)
      (fun d => by match d with | ⟨0, _⟩ => rfl)
  · rw [dif_neg hk]
    refine concatenate_pair_apply_right 0 x y h (ix1 k) rfl rfl (ix1 ⟨k.val - a, by have := k.isLt; omega⟩)
      (fun d hd => by
        match d with
        | ⟨0, _⟩ => exact absurd rfl hd) ?_
    show k.val - a + a = k.val
    omega

/-- End to end, first half. -/
theorem vec_lo (x y : (⟨1, ![64]⟩ : Shape).Idx → α)
    (h : Shape.Concatenates [(⟨1, ![64]⟩ : Shape), ⟨1, ![64]⟩] ⟨1, ![128]⟩ 0) (k : Fin 64) :
    concatenate (⟨1, ![128]⟩ : Shape) 0 [⟨⟨1, ![64]⟩, x⟩, ⟨⟨1, ![64]⟩, y⟩] h (ix1 (lo k)) = x (ix1 k) :=
  (concat_vec_apply (a := 64) (b := 64) rfl x y h (lo k)).trans (dif_pos (lo_lt k))

/-- End to end, second half. -/
theorem vec_hi (x y : (⟨1, ![64]⟩ : Shape).Idx → α)
    (h : Shape.Concatenates [(⟨1, ![64]⟩ : Shape), ⟨1, ![64]⟩] ⟨1, ![128]⟩ 0) (k : Fin 64) :
    concatenate (⟨1, ![128]⟩ : Shape) 0 [⟨⟨1, ![64]⟩, x⟩, ⟨⟨1, ![64]⟩, y⟩] h (ix1 (hi k)) = y (ix1 k) := by
  refine ((concat_vec_apply (a := 64) (b := 64) rfl x y h (hi k)).trans (dif_neg (hi_not_lt k))).trans ?_
  rw [hi_sub]

end

end Cert.GatedMP

end
-- ==== Proof.KernelBlocks.lean ====
/-
  The kernel's output array after the region, as one function of the arrays the region finds.

  The grid has 80 points. At point t the three edge windows (source rows, destination rows, edge features) stage rows
  6000·t … 6000·t + 5999 of their [480000, 64] arrays, every weight window stages its whole array (its index map is
  constantly zero), and the output window writes rows 6000·t … 6000·t + 5999 of the [480000, 128] result. The body stores
  one whole block whose row p is the wide updated-edge row followed by the wide message row of (source, edge, destination)
  row p of the staged blocks, which are rows 6000·t + p of the arrays. So every point writes back a block of ONE function
  of the arrays, `combined`; the 80 blocks tile the result (row r lies in block r / 6000), so the result IS `combined`.
-/
import proofs.«110270_j60447369724157_2_alg».proof.Proof.Gen.KernelIdeal.Frame
import proofs.«110270_j60447369724157_2_alg».proof.Proof.KernelRow
import proofs.«110270_j60447369724157_2_alg».proof.Proof.Halves
import Idealize.ShloMosaic.Lib.Pipeline.Value

set_option maxRecDepth 16384

noncomputable section

namespace Cert.KernelIdeal.Blocks

open Cert.KernelIdeal Cert.KernelIdeal.Gen Cert.KernelIdeal.RowValue
open Idealize.ShloMosaic Idealize.ShloMosaic.TcCoe Idealize.ShloMosaic.ValueIdx Cert.GatedMP
open Idealize.SL Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The result array as one function of the arrays the region finds: sources, edge features, destinations, the six fused
    edge weights, the six fused node weights. -/
abbrev Comb (c : Dev nD) : S480000x128.Idx → EReal :=
  combined (V m c main_v6) (V m c main_arg1) (V m c main_v13)
    (V m c main_v29) (V m c main_v30) (V m c main_v31) (V m c main_v23) (V m c main_v32) (V m c main_v28)
    (V m c main_v48) (V m c main_v49) (V m c main_v50) (V m c main_v42) (V m c main_v51) (V m c main_v47)

/-! ## The printed index maps, decided over the 80 points -/

/-- The edge windows move with the output window along the rows and sit at column block 0; the output window's row
    block is the point's number. -/
theorem idx_edge : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-- Every weight window sits at block 0 on every axis. -/
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)

/-- Row p of the block of point t is row 6000·t + p of the array. -/
def arow (t : Fin cfg0.N) (p : Fin 6000) : Fin 480000 :=
  ⟨t.val * 6000 + p.val, by have ht : t.val < 80 := lt_of_lt_of_eq t.isLt N_0; have := p.isLt; omega⟩

/-! ## The staged blocks, read -/

theorem blk0 (c : Dev nD) (t : Fin cfg0.N) (p : Fin 6000) (q : Fin 64) :
    iblk m c 0 t (ix2 p q) = V m c main_v6 (ix2 (arow t p) q) := by
  obtain ⟨e00, e01, -, -, -, -, -, -⟩ := idx_edge t
  show V m c main_v6 (((cfg0.win 0).blk t).view.emb (ix2 p q)) = V m c main_v6 (ix2 (arow t p) q)
  refine congrArg (V m c main_v6) ?_
  funext a; apply Fin.ext
  match a with
  | ⟨0, _⟩ => show win0_0.index t (0 : Fin 2) * 6000 + 1 * p.val = t.val * 6000 + p.val; omega
  | ⟨1, _⟩ => show win0_0.index t (1 : Fin 2) * 64 + 1 * q.val = q.val; omega

theorem blk1 (c : Dev nD) (t : Fin cfg0.N) (p : Fin 6000) (q : Fin 64) :
    iblk m c 1 t (ix2 p q) = V m c main_v13 (ix2 (arow t p) q) := by
  obtain ⟨-, -, e10, e11, -, -, -, -⟩ := idx_edge t
  show V m c main_v13 (((cfg0.win 1).blk t).view.emb (ix2 p q)) = V m c main_v13 (ix2 (arow t p) q)
  refine congrArg (V m c main_v13) ?_
  funext a; apply Fin.ext
  match a with
  | ⟨0, _⟩ => show win0_1.index t (0 : Fin 2) * 6000 + 1 * p.val = t.val * 6000 + p.val; omega
  | ⟨1, _⟩ => show win0_1.index t (1 : Fin 2) * 64 + 1 * q.val = q.val; omega

theorem blk2 (c : Dev nD) (t : Fin cfg0.N) (p : Fin 6000) (q : Fin 64) :
    iblk m c 2 t (ix2 p q) = V m c main_arg1 (ix2 (arow t p) q) := by
  obtain ⟨-, -, -, -, e20, e21, -, -⟩ := idx_edge t
  show V m c main_arg1 (((cfg0.win 2).blk t).view.emb (ix2 p q)) = V m c main_arg1 (ix2 (arow t p) q)
  refine congrArg (V m c main_arg1) ?_
  funext a; apply Fin.ext
  match a with
  | ⟨0, _⟩ => show win0_2.index t (0 : Fin 2) * 6000 + 1 * p.val = t.val * 6000 + p.val; omega
  | ⟨1, _⟩ => show win0_2.index t (1 : Fin 2) * 64 + 1 * q.val = q.val; omega

theorem blk3 (c : Dev nD) (t : Fin cfg0.N) : iblk m c 3 t = V m c main_v29 := by
  obtain ⟨e0, e1⟩ := idx3 t
  funext i
  show V m c main_v29 (((cfg0.win 3).blk t).view.emb i) = V m c main_v29 i
  refine congrArg (V m c main_v29) ?_
  funext a; apply Fin.ext
  match a with
  | ⟨0, _⟩ => show win0_3.index t (0 : Fin 2) * 64 + 1 * (i 0).val = (i 0).val; omega
  | ⟨1, _⟩ => show win0_3.index t (1 : Fin 2) * 128 + 1 * (i 1).val = (i 1).val; omega

theorem blk4 (c : Dev nD) (t : Fin cfg0.N) : iblk m c 4 t = V m c main_v30 := by
  obtain ⟨e0, e1⟩ := idx4 t
  funext i
  show V m c main_v30 (((cfg0.win 4).blk t).view.emb i) = V m c main_v30 i
  refine congrArg (V m c main_v30) ?_
  funext a; apply Fin.ext
  match a with
  | ⟨0, _⟩ => show win0_4.index t (0 : Fin 2) * 64 + 1 * (i 0).val = (i 0).val; omega
  | ⟨1, _⟩ => show win0_4.index t (1 : Fin 2) * 128 + 1 * (i 1).val = (i 1).val; omega

theorem blk5 (c : Dev nD) (t : Fin cfg0.N) : iblk m c 5 t = V m c main_v31 := by
  obtain ⟨e0, e1⟩ := idx5 t
  funext i
  show V m c main_v31 (((cfg0.win 5).blk t).view.emb i) = V m c main_v31 i
  refine congrArg (V m c main_v31) ?_
  funext a; apply Fin.ext
  match a with
  | ⟨0, _⟩ => show win0_5.index t (0 : Fin 2) * 64 + 1 * (i 0).val = (i 0).val; omega
  | ⟨1, _⟩ => show win0_5.index t (1 : Fin 2) * 128 + 1 * (i 1).val = (i 1).val; omega

theorem blk6 (c : Dev nD) (t : Fin cfg0.N) : iblk m c 6 t = V m c main_v23 := by
  have e0 := idx6 t
  funext i
  show V m c main_v23 (((cfg0.win 6).blk t).view.emb i) = V m c main_v23 i
  refine congrArg (V m c main_v23) ?_
  funext a; apply Fin.ext
  match a with
  | ⟨0, _⟩ => show win0_6.index t (0 : Fin 1) * 128 + 1 * (i 0).val = (i 0).val; omega

theorem blk7 (c : Dev nD) (t : Fin cfg0.N) : iblk m c 7 t = V m c main_v32 := by
  obtain ⟨e0, e1⟩ := idx7 t
  funext i
  show V m c main_v32 (((cfg0.win 7).blk t).view.emb i) = V m c main_v32 i
  refine congrArg (V m c main_v32) ?_
  funext a; apply Fin.ext
  match a with
  | ⟨0, _⟩ => show win0_7.index t (0 : Fin 2) * 128 + 1 * (i 0).val = (i 0).val; omega
  | ⟨1, _⟩ => show win0_7.index t (1 : Fin 2) * 128 + 1 * (i 1).val = (i 1).val; omega

theorem blk8 (c : Dev nD) (t : Fin cfg0.N) : iblk m c 8 t = V m c main_v28 := by
  have e0 := idx8 t
  funext i
  show V m c main_v28 (((cfg0.win 8).blk t).view.emb i) = V m c main_v28 i
  refine congrArg (V m c main_v28) ?_
  funext a; apply Fin.ext
  match a with
  | ⟨0, _⟩ => show win0_8.index t (0 : Fin 1) * 128 + 1 * (i 0).val = (i 0).val; omega

theorem blk9 (c : Dev nD) (t : Fin cfg0.N) : iblk m c 9 t = V m c main_v48 := by
  obtain ⟨e0, e1⟩ := idx9 t
  funext i
  show V m c main_v48 (((cfg0.win 9).blk t).view.emb i) = V m c main_v48 i
  refine congrArg (V m c main_v48) ?_
  funext a; apply Fin.ext
  match a with
  | ⟨0, _⟩ => show win0_9.index t (0 : Fin 2) * 64 + 1 * (i 0).val = (i 0).val; omega
  | ⟨1, _⟩ => show win0_9.index t (1 : Fin 2) * 128 + 1 * (i 1).val = (i 1).val; omega

theorem blk10 (c : Dev nD) (t : Fin cfg0.N) : iblk m c 10 t = V m c main_v49 := by
  obtain ⟨e0, e1⟩ := idx10 t
  funext i
  show V m c main_v49 (((cfg0.win 10).blk t).view.emb i) = V m c main_v49 i
  refine congrArg (V m c main_v49) ?_
  funext a; apply Fin.ext
  match a with
  | ⟨0, _⟩ => show win0_10.index t (0 : Fin 2) * 64 + 1 * (i 0).val = (i 0).val; omega
  | ⟨1, _⟩ => show win0_10.index t (1 : Fin 2) * 128 + 1 * (i 1).val = (i 1).val; omega

theorem blk11 (c : Dev nD) (t : Fin cfg0.N) : iblk m c 11 t = V m c main_v50 := by
  obtain ⟨e0, e1⟩ := idx11 t
  funext i
  show V m c main_v50 (((cfg0.win 11).blk t).view.emb i) = V m c main_v50 i
  refine congrArg (V m c main_v50) ?_
  funext a; apply Fin.ext
  match a with
  | ⟨0, _⟩ => show win0_11.index t (0 : Fin 2) * 64 + 1 * (i 0).val = (i 0).val; omega
  | ⟨1, _⟩ => show win0_11.index t (1 : Fin 2) * 128 + 1 * (i 1).val = (i 1).val; omega

theorem blk12 (c : Dev nD) (t : Fin cfg0.N) : iblk m c 12 t = V m c main_v42 := by
  have e0 := idx12 t
  funext i
  show V m c main_v42 (((cfg0.win 12).blk t).view.emb i) = V m c main_v42 i
  refine congrArg (V m c main_v42) ?_
  funext a; apply Fin.ext
  match a with
  | ⟨0, _⟩ => show win0_12.index t (0 : Fin 1) * 128 + 1 * (i 0).val = (i 0).val; omega

theorem blk13 (c : Dev nD) (t : Fin cfg0.N) : iblk m c 13 t = V m c main_v51 := by
  obtain ⟨e0, e1⟩ := idx13 t
  funext i
  show V m c main_v51 (((cfg0.win 13).blk t).view.emb i) = V m c main_v51 i
  refine congrArg (V m c main_v51) ?_
  funext a; apply Fin.ext
  match a with
  | ⟨0, _⟩ => show win0_13.index t (0 : Fin 2) * 128 + 1 * (i 0).val = (i 0).val; omega
  | ⟨1, _⟩ => show win0_13.index t (1 : Fin 2) * 128 + 1 * (i 1).val = (i 1).val; omega

theorem blk14 (c : Dev nD) (t : Fin cfg0.N) : iblk m c 14 t = V m c main_v47 := by
  have e0 := idx14 t
  funext i
  show V m c main_v47 (((cfg0.win 14).blk t).view.emb i) = V m c main_v47 i
  refine congrArg (V m c main_v47) ?_
  funext a; apply Fin.ext
  match a with
  | ⟨0, _⟩ => show win0_14.index t (0 : Fin 1) * 128 + 1 * (i 0).val = (i 0).val; omega

end Cert.KernelIdeal.Blocks

end
-- ==== Proof.KernelArray.lean ====
/-
  The kernel's output array after the region is `combined` of the arrays the region finds.

  At a point t the staged edge rows p are rows 6000·t + p of the arrays and the staged weights are the weight arrays
  (KernelBlocks), so the stored block, whose row p is the wide updated-edge row then the wide message row of those staged
  rows (KernelRow), is block t of `combined`. The 80 blocks tile the [480000, 128] result: row r lies in block r / 6000.
-/
import proofs.«110270_j60447369724157_2_alg».proof.Proof.KernelBlocks

set_option maxRecDepth 16384

noncomputable section

namespace Cert.KernelIdeal.Blocks

open Cert.KernelIdeal Cert.KernelIdeal.Gen Cert.KernelIdeal.RowValue
open Idealize.ShloMosaic Idealize.ShloMosaic.TcCoe Idealize.ShloMosaic.ValueIdx Cert.GatedMP
open Idealize.SL Idealize.SL.Sem
open Idealize.ShloMosaic.Pipeline (Dat Cfg Window)

variable (m : (ℓ : Loc nD τ sig) → Buf (Elt Ideal) ℓ) (ρ : Dev nD → PrngReg)

/-! ## What a point writes back -/

/-- The stored block of ANY staged contents whose edge rows p are row r of three arrays: at (p, cc) it is the combined
    function of those arrays and the staged weights at (r, cc). Stated over variables; the staged blocks go in afterwards. -/
theorem block_row_of (r : Fin 480000) (p : Fin 6000) (cc : Fin 128)
    (x0 x1 x2 : Vec Ideal S6000x64 .f32) (x3 x4 x5 : Vec Ideal S64x128 .bf16) (x6 : Vec Ideal S128 .f32)
    (x7 : Vec Ideal S128x128 .bf16) (x8 : Vec Ideal S128 .f32) (x9 x10 x11 : Vec Ideal S64x128 .bf16)
    (x12 : Vec Ideal S128 .f32) (x13 : Vec Ideal S128x128 .bf16) (x14 : Vec Ideal S128 .f32)
    (A0 A1 A2 : (⟨2, ![480000, 64]⟩ : Shape).Idx → EReal)
    (h0 : (fun q : Fin 64 => x0 (ix2 p q)) = rowOf A0 r)
    (h1 : (fun q : Fin 64 => x1 (ix2 p q)) = rowOf A1 r)
    (h2 : (fun q : Fin 64 => x2 (ix2 p q)) = rowOf A2 r) :
    stored x0 x1 x2 x3 x4 x5 x6 x7 x8 x9 x10 x11 x12 x13 x14 (ix2 p cc)
      = combinedAt A0 A2 A1 x3 x4 x5 x6 x7 x8 x9 x10 x11 x12 x13 x14 r cc := by
  rcases lo_or_hi cc with ⟨j, rfl⟩ | ⟨j, rfl⟩
  · rw [combinedAt_lo, stored_lo, h0, h1, h2]
  · rw [combinedAt_hi, stored_hi, h0, h1, h2]

set_option maxHeartbeats 4000000 in
/-- The stored block at a block index is `combined` at the array index under it. -/
theorem block_row (c : Dev nD) (t : Fin cfg0.N) (j : S6000x128.Idx) :
    stored (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) j
      = Comb m c (((cfg0.win 15).blk t).view.emb j) := by
  obtain ⟨p, cc, rfl⟩ : ∃ (p : Fin 6000) (cc : Fin 128), j = ix2 p cc := ⟨j 0, j 1, eq_ix2 j⟩
  have hemb : ((cfg0.win 15).blk t).view.emb (ix2 p cc) = ix2 (arow t p) cc := by
    obtain ⟨-, -, -, -, -, -, e0, e1⟩ := idx_edge t
    funext a; apply Fin.ext
    match a with
    | ⟨0, _⟩ => show win0_15.index t (0 : Fin 2) * 6000 + 1 * p.val = t.val * 6000 + p.val; omega
    | ⟨1, _⟩ => show win0_15.index t (1 : Fin 2) * 128 + 1 * cc.val = cc.val; omega
  rw [hemb]
  refine (block_row_of (arow t p) p cc (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) (V m c main_v6) (V m c main_v13) (V m c main_arg1)
    (funext fun q => blk0 m c t p q) (funext fun q => blk1 m c t p q) (funext fun q => blk2 m c t p q)).trans ?_
  rw [blk3 m c t, blk4 m c t, blk5 m c t, blk6 m c t, blk7 m c t, blk8 m c t, blk9 m c t, blk10 m c t,
    blk11 m c t, blk12 m c t, blk13 m c t, blk14 m c t]
  rfl

/-- WHAT POINT t WRITES BACK is block t of `combined` of the arrays the region finds. -/
theorem flushed_eq (c : Dev nD) (t : Fin cfg0.N) :
    (dats m 0 c).flushed 15 t = ((cfg0.win 15).blk t).view.read (Elt Ideal) (Comb m c) := by
  show (cfg0.win 15).cut (grid0.coords t) ((dats m 0 c).after 15 t) = _
  rw [after0_15]
  unfold out0_15
  rw [View.canon_unit_zero hz2]
  simp only [View.ld_unit_zero (S := S6000x64) hz2, View.ld_unit_zero (S := S64x128) hz2,
    View.ld_unit_zero (S := S128x128) hz2, View.ld_unit_zero (S := S128) hz1]
  funext j
  exact block_row m c t j

/-! ## The blocks tile the result -/

/-- An index of the result is in point t's block iff each coordinate is in the block's range on its axis. -/
theorem mem_blk (t : Fin cfg0.N) (i : S480000x128.Idx) :
    i ∈ ((cfg0.win 15).blk t).view.set ↔ ∀ a : Fin 2, win0_15.index t a * S6000x128.size a ≤ (i a).val
      ∧ (i a).val < win0_15.index t a * S6000x128.size a + S6000x128.size a := by
  show i ∈ ((View.whole main_v52).slice (win0_15.rect t)).set ↔ _
  rw [View.set_slice_whole, Rect.mem_set_unit]
  exact Iff.rfl

/-- Row r lies in the block of point r / 6000. -/
theorem cover (i : S480000x128.Idx) :
    ∃ t : Fin cfg0.N, (cfg0.win 15).flush t = true ∧ i ∈ ((cfg0.win 15).blk t).view.set := by
  have hi0 : (i 0).val < 480000 := (i 0).isLt
  have hi1 : (i 1).val < 128 := (i 1).isLt
  let t : Fin cfg0.N := ⟨(i 0).val / 6000, lt_of_lt_of_eq (show (i 0).val / 6000 < 80 by omega) N_0.symm⟩
  obtain ⟨-, -, -, -, -, -, e0, e1⟩ := idx_edge t
  have ht : t.val = (i 0).val / 6000 := rfl
  refine ⟨t, flush0_15 t, ?_⟩
  rw [mem_blk]
  intro a
  match a with
  | ⟨0, _⟩ =>
    show win0_15.index t (0 : Fin 2) * 6000 ≤ (i 0).val ∧ (i 0).val < win0_15.index t (0 : Fin 2) * 6000 + 6000
    omega
  | ⟨1, _⟩ =>
    show win0_15.index t (1 : Fin 2) * 128 ≤ (i 1).val ∧ (i 1).val < win0_15.index t (1 : Fin 2) * 128 + 128
    omega

/-- THE RESULT ARRAY after the region is `combined` of the arrays the region finds. -/
theorem final (c : Dev nD) : (dats m 0 c).arrAt 15 cfg0.N = Comb m c :=
  (dats m 0 c).arrAt_eq_of_cover 15 (Comb m c) (fun t _ => flushed_eq m c t) (cover)

end Cert.KernelIdeal.Blocks

end
-- ==== Proof.KernelFuse.lean ====
/-
  The fused weights, as the host lines before the kernel build them, and that they are fused in Spec's sense.

  From a branch pair's first-layer weights lW0, gW0 : 192×64 the host cuts the three 64-row bands (source, edge,
  destination rows), puts each band of lW0 beside the same band of gW0 (64×128), and narrows the float format (the identity
  on extended reals). The biases go end to end. The second-layer weights lW1, gW1 : 64×64 go on the diagonal of a 128×128
  matrix: [lW1 | 0] stacked on [0 | gW1], the zero blocks a broadcast of the literal 0. Read entry by entry these are the
  fourteen equations of `Fuses`: a band's entry (q, ·) is the 192×64 matrix's entry (band offset + q, ·), a side-by-side
  pair splits by column, a stacked pair by row, and the broadcast literal 0 is 0.
-/
import proofs.«110270_j60447369724157_2_alg».proof.KernelIdeal
import proofs.«110270_j60447369724157_2_alg».proof.Proof.Gen.KernelIdeal
import proofs.«110270_j60447369724157_2_alg».proof.Proof.Halves
import Idealize.ShloMosaic.Lib.ValueLayout

noncomputable section

namespace Cert.KernelIdeal.Fuse

open Cert.KernelIdeal Cert.KernelIdeal.Facts₀ Cert.KernelIdeal.Facts
open Idealize.ShloMosaic Idealize.ShloMosaic.ValueIdx Cert.GatedMP Cert.LibDense

/-- The source band (rows 0–63) of both branches' first-layer weights, side by side. -/
def fuseTop (lW0 gW0 : FVec Ideal S192x64 .f32) : FVec Ideal S64x128 .bf16 :=
  truncf .bf16 (concatenate S64x128 1
    [⟨S64x64, extractStridedSlice S64x64 ![0, 0] lW0 slices_S192x64_S64x64_0_0⟩,
     ⟨S64x64, extractStridedSlice S64x64 ![0, 0] gW0 slices_S192x64_S64x64_0_0⟩]
    concatenates_S64x64_S64x64_S64x128_d1) bitsLt_bf16_f32

/-- The edge band (rows 64–127). -/
def fuseMid (lW0 gW0 : FVec Ideal S192x64 .f32) : FVec Ideal S64x128 .bf16 :=
  truncf .bf16 (concatenate S64x128 1
    [⟨S64x64, extractStridedSlice S64x64 ![64, 0] lW0 slices_S192x64_S64x64_64_0⟩,
     ⟨S64x64, extractStridedSlice S64x64 ![64, 0] gW0 slices_S192x64_S64x64_64_0⟩]
    concatenates_S64x64_S64x64_S64x128_d1) bitsLt_bf16_f32

/-- The destination band (rows 128–191). -/
def fuseBot (lW0 gW0 : FVec Ideal S192x64 .f32) : FVec Ideal S64x128 .bf16 :=
  truncf .bf16 (concatenate S64x128 1
    [⟨S64x64, extractStridedSlice S64x64 ![128, 0] lW0 slices_S192x64_S64x64_128_0⟩,
     ⟨S64x64, extractStridedSlice S64x64 ![128, 0] gW0 slices_S192x64_S64x64_128_0⟩]
    concatenates_S64x64_S64x64_S64x128_d1) bitsLt_bf16_f32

/-- Two bias vectors end to end. -/
def fuseBias (lb gb : FVec Ideal S64 .f32) : FVec Ideal S128 .f32 :=
  concatenate S128 0 [⟨S64, lb⟩, ⟨S64, gb⟩] concatenates_S64_S64_S128_d0

/-- A 64×64 block of the literal 0. -/
def zeroBlock : FVec Ideal S64x64 .f32 :=
  broadcastInDim S64x64 ![] bcast_S_S64x64 (constant (F := Ideal) S_ .f32 0x00000000#32)

/-- The second-layer weights on the diagonal. -/
def fuseDiag (lW1 gW1 : FVec Ideal S64x64 .f32) : FVec Ideal S128x128 .bf16 :=
  truncf .bf16 (concatenate S128x128 0
    [⟨S64x128, concatenate S64x128 1 [⟨S64x64, lW1⟩, ⟨S64x64, zeroBlock⟩] concatenates_S64x64_S64x64_S64x128_d1⟩,
     ⟨S64x128, concatenate S64x128 1 [⟨S64x64, zeroBlock⟩, ⟨S64x64, gW1⟩] concatenates_S64x64_S64x64_S64x128_d1⟩]
    concatenates_S64x128_S64x128_S128x128_d0) bitsLt_bf16_f32

/-- Every entry of the zero block is 0. -/
theorem zeroBlock_apply (i : S64x64.Idx) : zeroBlock i = 0 := by
  unfold zeroBlock
  refine (broadcastInDim_apply _ bcast_S_S64x64 _ i (fun a => a.elim0) (fun a => a.elim0)).trans ?_
  exact Ideal.ofBits_zero_f32

/-- A band of a 192×64 matrix at (q, k): the matrix at (offset + q, k). -/
theorem band0 (W : FVec Ideal S192x64 .f32) (q k : Fin 64) :
    extractStridedSlice S64x64 ![0, 0] W slices_S192x64_S64x64_0_0 (ix2 q k) = W (ix2 (p0 q) k) :=
  slice2_axis0_apply 0 W slices_S192x64_S64x64_0_0 q k (p0 q) (Nat.zero_add _).symm
theorem band1 (W : FVec Ideal S192x64 .f32) (q k : Fin 64) :
    extractStridedSlice S64x64 ![64, 0] W slices_S192x64_S64x64_64_0 (ix2 q k) = W (ix2 (p1 q) k) :=
  slice2_axis0_apply 64 W slices_S192x64_S64x64_64_0 q k (p1 q) rfl
theorem band2 (W : FVec Ideal S192x64 .f32) (q k : Fin 64) :
    extractStridedSlice S64x64 ![128, 0] W slices_S192x64_S64x64_128_0 (ix2 q k) = W (ix2 (p2 q) k) :=
  slice2_axis0_apply 128 W slices_S192x64_S64x64_128_0 q k (p2 q) rfl

/-- The host's fused weights are fused. -/
theorem fuses (lW0 : FVec Ideal S192x64 .f32) (lb0 : FVec Ideal S64 .f32) (lW1 : FVec Ideal S64x64 .f32)
    (lb1 : FVec Ideal S64 .f32) (gW0 : FVec Ideal S192x64 .f32) (gb0 : FVec Ideal S64 .f32)
    (gW1 : FVec Ideal S64x64 .f32) (gb1 : FVec Ideal S64 .f32) :
    Fuses (fuseTop lW0 gW0) (fuseMid lW0 gW0) (fuseBot lW0 gW0) (fuseBias lb0 gb0) (fuseDiag lW1 gW1) (fuseBias lb1 gb1)
      lW0 lb0 lW1 lb1 gW0 gb0 gW1 gb1 where
  ws_lo q k := (cols_lo _ _ concatenates_S64x64_S64x64_S64x128_d1 q k).trans (band0 lW0 q k)
  ws_hi q k := (cols_hi _ _ concatenates_S64x64_S64x64_S64x128_d1 q k).trans (band0 gW0 q k)
  wm_lo q k := (cols_lo _ _ concatenates_S64x64_S64x64_S64x128_d1 q k).trans (band1 lW0 q k)
  wm_hi q k := (cols_hi _ _ concatenates_S64x64_S64x64_S64x128_d1 q k).trans (band1 gW0 q k)
  wd_lo q k := (cols_lo _ _ concatenates_S64x64_S64x64_S64x128_d1 q k).trans (band2 lW0 q k)
  wd_hi q k := (cols_hi _ _ concatenates_S64x64_S64x64_S64x128_d1 q k).trans (band2 gW0 q k)
  b0_lo k := vec_lo lb0 gb0 concatenates_S64_S64_S128_d0 k
  b0_hi k := vec_hi lb0 gb0 concatenates_S64_S64_S128_d0 k
  w1_ll k j := (rows_lo _ _ concatenates_S64x128_S64x128_S128x128_d0 k (lo j)).trans
    (cols_lo lW1 zeroBlock concatenates_S64x64_S64x64_S64x128_d1 k j)
  w1_lh k j := ((rows_lo _ _ concatenates_S64x128_S64x128_S128x128_d0 k (hi j)).trans
    (cols_hi lW1 zeroBlock concatenates_S64x64_S64x64_S64x128_d1 k j)).trans (zeroBlock_apply _)
  w1_hl k j := ((rows_hi _ _ concatenates_S64x128_S64x128_S128x128_d0 k (lo j)).trans
    (cols_lo zeroBlock gW1 concatenates_S64x64_S64x64_S64x128_d1 k j)).trans (zeroBlock_apply _)
  w1_hh k j := (rows_hi _ _ concatenates_S64x128_S64x128_S128x128_d0 k (hi j)).trans
    (cols_hi zeroBlock gW1 concatenates_S64x64_S64x64_S64x128_d1 k j)
  b1_lo j := vec_lo lb1 gb1 concatenates_S64_S64_S128_d0 j
  b1_hi j := vec_hi lb1 gb1 concatenates_S64_S64_S128_d0 j

end Cert.KernelIdeal.Fuse

end
-- ==== Proof.KernelHost.lean ====
/-
  The arrays the kernel's region finds, as functions of the launch arguments.

  Before the region @main gathers the source and destination rows of the node features (wrapping a negative index by the
  node count first, as the reference does, with the same operations in the same order), and builds the fused weights:
  bands of the first-layer weights side by side, biases end to end, second-layer weights on a block diagonal. Each such
  array is the composed term of the host operations that write it; the gathers are the reference's own gather stages of
  the same arguments, and the weights are the forms proved fused in `Fuse`.
-/
import proofs.«110270_j60447369724157_2_alg».proof.Proof.Gen.KernelIdeal.Frame
import proofs.«110270_j60447369724157_2_alg».proof.Proof.Gen.ReferenceIdeal.Read
import proofs.«110270_j60447369724157_2_alg».proof.Proof.KernelFuse
import Idealize.ShloMosaic.Lib.StableHlo.Run

set_option maxRecDepth 16384

noncomputable section

namespace Cert.KernelIdeal.HostValue

open Cert.KernelIdeal Cert.KernelIdeal.Gen Cert.KernelIdeal.Fuse
open Idealize.ShloMosaic Idealize.ShloMosaic.TcCoe Idealize.ShloMosaic.StableHlo Idealize.ShloMosaic.Tactic
open Idealize.SL Idealize.SL.Sem

variable (m : (ℓ : Loc nD τ sig) → Buf (Elt Ideal) ℓ)

/-- The gathered source rows are the reference's gather of the node features at the wrapped source indices. -/
theorem V_src (c : Dev nD) :
    (V m c main_v6 : S480000x64.Idx → EReal)
      = Cert.ReferenceIdeal.Read.val_main_v6 (F := Ideal) (m ((c : Thread nD τ).loc main_arg0)) (m ((c : Thread nD τ).loc main_arg2)) := by
  show StableHlo.after hostOps0 (fun b => m (c, b)) (Proc.devRef .tc main_v6) = _
  after_results_simp
  rfl

/-- The gathered destination rows likewise. -/
theorem V_dst (c : Dev nD) :
    (V m c main_v13 : S480000x64.Idx → EReal)
      = Cert.ReferenceIdeal.Read.val_main_v13 (F := Ideal) (m ((c : Thread nD τ).loc main_arg0)) (m ((c : Thread nD τ).loc main_arg3)) := by
  show StableHlo.after hostOps0 (fun b => m (c, b)) (Proc.devRef .tc main_v13) = _
  after_results_simp
  rfl

/-! ## The fused edge weights -/

theorem V_eWs (c : Dev nD) :
    (V m c main_v29 : S64x128.Idx → EReal)
      = fuseTop (m ((c : Thread nD τ).loc main_arg4)) (m ((c : Thread nD τ).loc main_arg8)) := by
  show StableHlo.after hostOps0 (fun b => m (c, b)) (Proc.devRef .tc main_v29) = _
  after_results_simp
  rfl
theorem V_eWm (c : Dev nD) :
    (V m c main_v30 : S64x128.Idx → EReal)
      = fuseMid (m ((c : Thread nD τ).loc main_arg4)) (m ((c : Thread nD τ).loc main_arg8)) := by
  show StableHlo.after hostOps0 (fun b => m (c, b)) (Proc.devRef .tc main_v30) = _
  after_results_simp
  rfl
theorem V_eWd (c : Dev nD) :
    (V m c main_v31 : S64x128.Idx → EReal)
      = fuseBot (m ((c : Thread nD τ).loc main_arg4)) (m ((c : Thread nD τ).loc main_arg8)) := by
  show StableHlo.after hostOps0 (fun b => m (c, b)) (Proc.devRef .tc main_v31) = _
  after_results_simp
  rfl
theorem V_eb0 (c : Dev nD) :
    (V m c main_v23 : S128.Idx → EReal)
      = fuseBias (m ((c : Thread nD τ).loc main_arg5)) (m ((c : Thread nD τ).loc main_arg9)) := by
  show StableHlo.after hostOps0 (fun b => m (c, b)) (Proc.devRef .tc main_v23) = _
  after_results_simp
  rfl
theorem V_eW1 (c : Dev nD) :
    (V m c main_v32 : S128x128.Idx → EReal)
      = fuseDiag (m ((c : Thread nD τ).loc main_arg6)) (m ((c : Thread nD τ).loc main_arg10)) := by
  show StableHlo.after hostOps0 (fun b => m (c, b)) (Proc.devRef .tc main_v32) = _
  after_results_simp
  rfl
theorem V_eb1 (c : Dev nD) :
    (V m c main_v28 : S128.Idx → EReal)
      = fuseBias (m ((c : Thread nD τ).loc main_arg7)) (m ((c : Thread nD τ).loc main_arg11)) := by
  show StableHlo.after hostOps0 (fun b => m (c, b)) (Proc.devRef .tc main_v28) = _
  after_results_simp
  rfl

/-! ## The fused node weights -/

theorem V_nWs (c : Dev nD) :
    (V m c main_v48 : S64x128.Idx → EReal)
      = fuseTop (m ((c : Thread nD τ).loc main_arg12)) (m ((c : Thread nD τ).loc main_arg16)) := by
  show StableHlo.after hostOps0 (fun b => m (c, b)) (Proc.devRef .tc main_v48) = _
  after_results_simp
  rfl
theorem V_nWm (c : Dev nD) :
    (V m c main_v49 : S64x128.Idx → EReal)
      = fuseMid (m ((c : Thread nD τ).loc main_arg12)) (m ((c : Thread nD τ).loc main_arg16)) := by
  show StableHlo.after hostOps0 (fun b => m (c, b)) (Proc.devRef .tc main_v49) = _
  after_results_simp
  rfl
theorem V_nWd (c : Dev nD) :
    (V m c main_v50 : S64x128.Idx → EReal)
      = fuseBot (m ((c : Thread nD τ).loc main_arg12)) (m ((c : Thread nD τ).loc main_arg16)) := by
  show StableHlo.after hostOps0 (fun b => m (c, b)) (Proc.devRef .tc main_v50) = _
  after_results_simp
  rfl
theorem V_nb0 (c : Dev nD) :
    (V m c main_v42 : S128.Idx → EReal)
      = fuseBias (m ((c : Thread nD τ).loc main_arg13)) (m ((c : Thread nD τ).loc main_arg17)) := by
  show StableHlo.after hostOps0 (fun b => m (c, b)) (Proc.devRef .tc main_v42) = _
  after_results_simp
  rfl
theorem V_nW1 (c : Dev nD) :
    (V m c main_v51 : S128x128.Idx → EReal)
      = fuseDiag (m ((c : Thread nD τ).loc main_arg14)) (m ((c : Thread nD τ).loc main_arg18)) := by
  show StableHlo.after hostOps0 (fun b => m (c, b)) (Proc.devRef .tc main_v51) = _
  after_results_simp
  rfl
theorem V_nb1 (c : Dev nD) :
    (V m c main_v47 : S128.Idx → EReal)
      = fuseBias (m ((c : Thread nD τ).loc main_arg15)) (m ((c : Thread nD τ).loc main_arg19)) := by
  show StableHlo.after hostOps0 (fun b => m (c, b)) (Proc.devRef .tc main_v47) = _
  after_results_simp
  rfl

end Cert.KernelIdeal.HostValue

end
-- ==== Proof.RefRow.lean ====
/-
  The reference's two edge-level results as Spec's whole-array functions.

  The reference lays the gathered source rows, the edge features and the gathered destination rows side by side
  ([480000, 192]), and for each branch computes  silu (X · W0 + b0) · W1 + b1  with plain matrix products; silu and the
  sigmoid are spelt out as  x · (1 / (1 + e^(-x)))  and  1 / (1 + e^(-x)). On the extended reals that quotient IS the
  logistic function (its definition there), the literal 1.0 is 1, a product read at (r, j) is the sum over the contracted
  index, a bias broadcast to every row is the bias at the column, and the three-piece row is Spec's `cat3`. So the updated
  edge features are `enewArr` and the messages `msgArr` of (sources, edge features, destinations) and the sixteen weight
  arrays.
-/
import proofs.«110270_j60447369724157_2_alg».proof.Proof.Gen.ReferenceIdeal.Read
import proofs.«110270_j60447369724157_2_alg».proof.Proof.Spec
import proofs.«110270_j60447369724157_2_alg».proof.Proof.LibDense

noncomputable section

namespace Cert.ReferenceIdeal.RowValue

open Cert.ReferenceIdeal Cert.ReferenceIdeal.Gen Cert.ReferenceIdeal.Read
open Idealize.ShloMosaic Idealize.ShloMosaic.ValueIdx Cert.GatedMP Cert.LibDense

/-! ## The reference's operations as vector programs -/

/-- The literal 1.0 at every entry. -/
def ones : FVec Ideal S480000x64 .f32 :=
  broadcastInDim S480000x64 ![] bcast_S_S480000x64 (constant (F := Ideal) S_ .f32 0x3F800000#32)

/-- 1 / (1 + e^(-x)), spelt out. -/
def sigmoidVec (v : FVec Ideal S480000x64 .f32) : FVec Ideal S480000x64 .f32 :=
  Host.divf ones (addf ones (Host.exp (Host.negf v)))

/-- x · (1 / (1 + e^(-x))). -/
def siluVec (v : FVec Ideal S480000x64 .f32) : FVec Ideal S480000x64 .f32 := mulf v (sigmoidVec v)

/-- A 64-vector of biases at every row. -/
def biasAll (b : FVec Ideal S64 .f32) : FVec Ideal S480000x64 .f32 :=
  broadcastInDim S480000x64 ![0, 1] bcast_S1x64_S480000x64_0_1 (broadcastInDim S1x64 ![1] bcast_S64_S1x64_1 b)

/-- X · W0 + b0 for a 192-wide X. -/
def dense192 (X : FVec Ideal S480000x192 .f32) (W0 : FVec Ideal S192x64 .f32) (b0 : FVec Ideal S64 .f32) :
    FVec Ideal S480000x64 .f32 :=
  addf (Host.dotGeneral dot_S480000x192_S192x64_S480000x64_1_0_0_1_n_n none X W0) (biasAll b0)

/-- H · W1 + b1 for a 64-wide H. -/
def dense64 (H : FVec Ideal S480000x64 .f32) (W1 : FVec Ideal S64x64 .f32) (b1 : FVec Ideal S64 .f32) :
    FVec Ideal S480000x64 .f32 :=
  addf (Host.dotGeneral dot_S480000x64_S64x64_S480000x64_1_0_0_1_n_n none H W1) (biasAll b1)

/-- One branch: silu of the first layer, then the second layer. -/
def branchVec (X : FVec Ideal S480000x192 .f32) (W0 : FVec Ideal S192x64 .f32) (b0 : FVec Ideal S64 .f32)
    (W1 : FVec Ideal S64x64 .f32) (b1 : FVec Ideal S64 .f32) : FVec Ideal S480000x64 .f32 :=
  dense64 (siluVec (dense192 X W0 b0)) W1 b1

/-- The gated perceptron of a 192-wide X. -/
def gateVec (X : FVec Ideal S480000x192 .f32) (lW0 : FVec Ideal S192x64 .f32) (lb0 : FVec Ideal S64 .f32)
    (lW1 : FVec Ideal S64x64 .f32) (lb1 : FVec Ideal S64 .f32) (gW0 : FVec Ideal S192x64 .f32) (gb0 : FVec Ideal S64 .f32)
    (gW1 : FVec Ideal S64x64 .f32) (gb1 : FVec Ideal S64 .f32) : FVec Ideal S480000x64 .f32 :=
  mulf (siluVec (branchVec X lW0 lb0 lW1 lb1)) (sigmoidVec (branchVec X gW0 gb0 gW1 gb1))

/-- Three [480000, 64] arrays side by side. -/
def cat3Vec (A B C : FVec Ideal S480000x64 .f32) : FVec Ideal S480000x192 .f32 :=
  concatenate S480000x192 1 [⟨S480000x64, A⟩, ⟨S480000x64, B⟩, ⟨S480000x64, C⟩]
    concatenates_S480000x64_S480000x64_S480000x64_S480000x192_d1

/-! ## Read at an index -/

theorem ones_apply (i : S480000x64.Idx) : ones i = 1 := by
  unfold ones
  refine (broadcastInDim_apply _ bcast_S_S480000x64 _ i (fun a => a.elim0) (fun a => a.elim0)).trans ?_
  exact ofBits_one

/-- The spelt-out sigmoid is the logistic function. -/
theorem sigmoidVec_apply (v : FVec Ideal S480000x64 .f32) (i : S480000x64.Idx) :
    sigmoidVec v i = Ideal.logistic (v i) := by
  show Ideal.div (ones i) (ones i + Ideal.exp (-(v i))) = _
  rw [ones_apply]
  rfl

theorem siluVec_apply (v : FVec Ideal S480000x64 .f32) (i : S480000x64.Idx) : siluVec v i = silu (v i) := by
  show v i * sigmoidVec v i = _
  rw [sigmoidVec_apply]
  rfl

/-- A bias at every row, read at (r, k): the bias at k. (The two broadcasts are the reference's own stages.) -/
theorem biasAll_apply (b : FVec Ideal S64 .f32) (r : Fin 480000) (k : Fin 64) : biasAll b (ix2 r k) = b (ix1 k) := by
  show val_main_v17 (F := Ideal) b (ix2 r k) = _
  rw [val_main_v17_apply, val_main_v16_apply]
  exact congrArg b (funext fun a => Fin.ext (by match a with | ⟨0, _⟩ => rfl))

theorem dense192_apply (X : FVec Ideal S480000x192 .f32) (W0 : FVec Ideal S192x64 .f32) (b0 : FVec Ideal S64 .f32)
    (r : Fin 480000) (k : Fin 64) :
    dense192 X W0 b0 (ix2 r k) = (∑ q : Fin 192, X (ix2 r q) * W0 (ix2 q k)) + b0 (ix1 k) :=
  congrArg₂ (· + ·)
    (dotGeneral_plain dot_S480000x192_S192x64_S480000x64_1_0_0_1_n_n_wf none .single X W0 r k) (biasAll_apply b0 r k)

theorem dense64_apply (H : FVec Ideal S480000x64 .f32) (W1 : FVec Ideal S64x64 .f32) (b1 : FVec Ideal S64 .f32)
    (r : Fin 480000) (j : Fin 64) :
    dense64 H W1 b1 (ix2 r j) = (∑ k : Fin 64, H (ix2 r k) * W1 (ix2 k j)) + b1 (ix1 j) :=
  congrArg₂ (· + ·)
    (dotGeneral_plain dot_S480000x64_S64x64_S480000x64_1_0_0_1_n_n_wf none .single H W1 r j) (biasAll_apply b1 r j)

/-- Three arrays side by side, read at (r, q): row r of the three, side by side, at q. -/
theorem cat3Vec_apply (A B C : FVec Ideal S480000x64 .f32) (r : Fin 480000) (q : Fin 192) :
    cat3Vec A B C (ix2 r q) = cat3 (rowOf A r) (rowOf B r) (rowOf C r) q := by
  unfold cat3Vec cat3
  by_cases h1 : q.val < 64
  · rw [dif_pos h1]
    exact concatenate_apply_piece 1 [⟨S480000x64, A⟩, ⟨S480000x64, B⟩, ⟨S480000x64, C⟩]
      concatenates_S480000x64_S480000x64_S480000x64_S480000x192_d1 (ix2 r q)
      0 (by show (0 : Nat) < 3; omega) S480000x64 A rfl rfl 0 rfl (ix2 r ⟨q.val, h1⟩)
      (fun b hb => by match b with | ⟨0, _⟩ => rfl | ⟨1, _⟩ => exact absurd rfl hb)
      (by show 0 + q.val = q.val; omega)
  · rw [dif_neg h1]
    by_cases h2 : q.val < 128
    · rw [dif_pos h2]
      exact concatenate_apply_piece 1 [⟨S480000x64, A⟩, ⟨S480000x64, B⟩, ⟨S480000x64, C⟩]
        concatenates_S480000x64_S480000x64_S480000x64_S480000x192_d1 (ix2 r q)
        1 (by show (1 : Nat) < 3; omega) S480000x64 B rfl rfl 64 rfl (ix2 r ⟨q.val - 64, by omega⟩)
        (fun b hb => by match b with | ⟨0, _⟩ => rfl | ⟨1, _⟩ => exact absurd rfl hb)
        (by show 64 + (q.val - 64) = q.val; omega)
    · rw [dif_neg h2]
      exact concatenate_apply_piece 1 [⟨S480000x64, A⟩, ⟨S480000x64, B⟩, ⟨S480000x64, C⟩]
        concatenates_S480000x64_S480000x64_S480000x64_S480000x192_d1 (ix2 r q)
        2 (by show (2 : Nat) < 3; omega) S480000x64 C rfl rfl 128 rfl (ix2 r ⟨q.val - 128, by have := q.isLt; omega⟩)
        (fun b hb => by match b with | ⟨0, _⟩ => rfl | ⟨1, _⟩ => exact absurd rfl hb)
        (by show 128 + (q.val - 128) = q.val; omega)

/-- One branch's hidden layer at (r, k). -/
theorem hidden_apply (A B C : FVec Ideal S480000x64 .f32) (W0 : FVec Ideal S192x64 .f32) (b0 : FVec Ideal S64 .f32)
    (r : Fin 480000) (k : Fin 64) :
    siluVec (dense192 (cat3Vec A B C) W0 b0) (ix2 r k) = Cert.GatedMP.hidden (rowOf A r) (rowOf B r) (rowOf C r) W0 b0 k := by
  rw [siluVec_apply]
  unfold Cert.GatedMP.hidden
  refine congrArg silu ((dense192_apply _ W0 b0 r k).trans ?_)
  exact congrArg (· + b0 (ix1 k))
    (Finset.sum_congr rfl fun q _ => congrArg (· * W0 (ix2 q k)) (cat3Vec_apply A B C r q))

/-- One branch at (r, j). -/
theorem branchVec_apply (A B C : FVec Ideal S480000x64 .f32) (W0 : FVec Ideal S192x64 .f32) (b0 : FVec Ideal S64 .f32)
    (W1 : FVec Ideal S64x64 .f32) (b1 : FVec Ideal S64 .f32) (r : Fin 480000) (j : Fin 64) :
    branchVec (cat3Vec A B C) W0 b0 W1 b1 (ix2 r j) = branch (rowOf A r) (rowOf B r) (rowOf C r) W0 b0 W1 b1 j := by
  unfold branchVec branch
  refine (dense64_apply _ W1 b1 r j).trans ?_
  exact congrArg (· + b1 (ix1 j))
    (Finset.sum_congr rfl fun k _ => congrArg (· * W1 (ix2 k j)) (hidden_apply A B C W0 b0 r k))

/-- The gated perceptron at (r, j). -/
theorem gateVec_apply (A B C : FVec Ideal S480000x64 .f32) (lW0 : FVec Ideal S192x64 .f32) (lb0 : FVec Ideal S64 .f32)
    (lW1 : FVec Ideal S64x64 .f32) (lb1 : FVec Ideal S64 .f32) (gW0 : FVec Ideal S192x64 .f32) (gb0 : FVec Ideal S64 .f32)
    (gW1 : FVec Ideal S64x64 .f32) (gb1 : FVec Ideal S64 .f32) (r : Fin 480000) (j : Fin 64) :
    gateVec (cat3Vec A B C) lW0 lb0 lW1 lb1 gW0 gb0 gW1 gb1 (ix2 r j)
      = gate (rowOf A r) (rowOf B r) (rowOf C r) lW0 lb0 lW1 lb1 gW0 gb0 gW1 gb1 j := by
  show siluVec (branchVec (cat3Vec A B C) lW0 lb0 lW1 lb1) (ix2 r j)
      * sigmoidVec (branchVec (cat3Vec A B C) gW0 gb0 gW1 gb1) (ix2 r j) = _
  rw [siluVec_apply, sigmoidVec_apply, branchVec_apply, branchVec_apply]
  rfl

/-! ## The reference's stages are these programs -/

section Stages
variable (x0 : FVec Ideal S30000x64 .f32) (x1 : FVec Ideal S480000x64 .f32) (x2 x3 : IVec S480000 32)
  (x4 : FVec Ideal S192x64 .f32) (x5 : FVec Ideal S64 .f32) (x6 : FVec Ideal S64x64 .f32) (x7 : FVec Ideal S64 .f32)
  (x8 : FVec Ideal S192x64 .f32) (x9 : FVec Ideal S64 .f32) (x10 : FVec Ideal S64x64 .f32) (x11 : FVec Ideal S64 .f32)
  (x12 : FVec Ideal S192x64 .f32) (x13 : FVec Ideal S64 .f32) (x14 : FVec Ideal S64x64 .f32) (x15 : FVec Ideal S64 .f32)
  (x16 : FVec Ideal S192x64 .f32) (x17 : FVec Ideal S64 .f32) (x18 : FVec Ideal S64x64 .f32) (x19 : FVec Ideal S64 .f32)

/-- The updated edge features: the edge features plus the edge perceptron of the three-piece rows. -/
theorem v41_form :
    val_main_v41 (F := Ideal) x0 x1 x2 x3 x4 x5 x6 x7 x8 x9 x10 x11
      = addf x1 (gateVec (cat3Vec (val_main_v6 (F := Ideal) x0 x2) x1 (val_main_v13 (F := Ideal) x0 x3))
          x4 x5 x6 x7 x8 x9 x10 x11) := rfl

/-- The messages: the node perceptron of the rows with the UPDATED edge features in the middle. -/
theorem v68_form :
    val_main_v68 (F := Ideal) x0 x1 x2 x3 x4 x5 x6 x7 x8 x9 x10 x11 x12 x13 x14 x15 x16 x17 x18 x19
      = gateVec (cat3Vec (val_main_v6 (F := Ideal) x0 x2)
          (val_main_v41 (F := Ideal) x0 x1 x2 x3 x4 x5 x6 x7 x8 x9 x10 x11) (val_main_v13 (F := Ideal) x0 x3))
          x12 x13 x14 x15 x16 x17 x18 x19 := rfl

/-- The updated edge features are `enewArr` of (sources, edge features, destinations). -/
theorem v41_eq :
    val_main_v41 (F := Ideal) x0 x1 x2 x3 x4 x5 x6 x7 x8 x9 x10 x11
      = enewArr (val_main_v6 (F := Ideal) x0 x2) x1 (val_main_v13 (F := Ideal) x0 x3) x4 x5 x6 x7 x8 x9 x10 x11 := by
  rw [v41_form]
  funext i
  obtain ⟨r, j, rfl⟩ : ∃ (r : Fin 480000) (j : Fin 64), i = ix2 r j := ⟨i 0, i 1, eq_ix2 i⟩
  show x1 (ix2 r j) + gateVec (cat3Vec (val_main_v6 (F := Ideal) x0 x2) x1 (val_main_v13 (F := Ideal) x0 x3))
      x4 x5 x6 x7 x8 x9 x10 x11 (ix2 r j) = _
  rw [gateVec_apply]
  rfl

/-- The messages are `msgArr` of the same. -/
theorem v68_eq :
    val_main_v68 (F := Ideal) x0 x1 x2 x3 x4 x5 x6 x7 x8 x9 x10 x11 x12 x13 x14 x15 x16 x17 x18 x19
      = msgArr (val_main_v6 (F := Ideal) x0 x2) x1 (val_main_v13 (F := Ideal) x0 x3) x4 x5 x6 x7 x8 x9 x10 x11
          x12 x13 x14 x15 x16 x17 x18 x19 := by
  rw [v68_form, v41_eq]
  funext i
  obtain ⟨r, j, rfl⟩ : ∃ (r : Fin 480000) (j : Fin 64), i = ix2 r j := ⟨i 0, i 1, eq_ix2 i⟩
  rw [gateVec_apply]
  rfl

/-! ## The node update: what both programs do with the messages

Scatter-add the messages into a zero [30000, 64] array at the (unwrapped) destination indices, multiply by the 64×64
output matrix, add the node features. It is one function of the messages, never opened here. -/

/-- The node update as a function of the node features, the destination indices, the output matrix and the messages. -/
def tail (nf : FVec Ideal S30000x64 .f32) (dst : IVec S480000 32) (W : FVec Ideal S64x64 .f32)
    (msgs : FVec Ideal S480000x64 .f32) : FVec Ideal S30000x64 .f32 :=
  addf nf (Host.dotGeneral dot_S30000x64_S64x64_S30000x64_1_0_0_1_n_n none
    (Host.scatterAdd scatter_S30000x64_S480000x1_S480000x64_1_0_0_1 (val_main_v69 (F := Ideal))
      (val_main_v70 (F := Ideal) dst) msgs) W)

/-- The reference's updated node features are the node update of its messages. -/
theorem v73_form (x20 : FVec Ideal S64x64 .f32) :
    val_main_v73 (F := Ideal) x0 x1 x2 x3 x4 x5 x6 x7 x8 x9 x10 x11 x12 x13 x14 x15 x16 x17 x18 x19 x20
      = tail x0 x3 x20
          (val_main_v68 (F := Ideal) x0 x1 x2 x3 x4 x5 x6 x7 x8 x9 x10 x11 x12 x13 x14 x15 x16 x17 x18 x19) := rfl

end Stages

end Cert.ReferenceIdeal.RowValue

end
-- ==== Proof.KernelTail.lean ====
/-
  The kernel's two results as Spec's whole-array functions of the launch arguments.

  After the region @main cuts the [480000, 128] result into its two 64-column halves, returns the first (the updated
  edge features), and runs the node update on the second (the messages). Column lo j of `combined` is the wide updated
  edge row and column hi j the wide message row of (source, edge, destination) row r; with the weights the host fused,
  the wide forms are the reference's forms (Spec's bridge), so the halves are `enewArr` and `msgArr` of the gathered
  rows, the edge features and the sixteen weight arguments.
-/
import proofs.«110270_j60447369724157_2_alg».proof.Proof.KernelArray
import proofs.«110270_j60447369724157_2_alg».proof.Proof.KernelHost
import proofs.«110270_j60447369724157_2_alg».proof.Proof.RefRow
import Idealize.ShloMosaic.Lib.StableHlo.Run
import Idealize.ShloMosaic.Lib.ValueLayout

set_option maxRecDepth 16384

noncomputable section

namespace Cert.KernelIdeal.TailValue

open Cert.KernelIdeal Cert.KernelIdeal.Gen Cert.KernelIdeal.Fuse Cert.KernelIdeal.Blocks Cert.KernelIdeal.HostValue
open Idealize.ShloMosaic Idealize.ShloMosaic.TcCoe Idealize.ShloMosaic.StableHlo Idealize.ShloMosaic.Tactic
open Idealize.ShloMosaic.ValueIdx Cert.GatedMP
open Idealize.SL Idealize.SL.Sem

variable (m : (ℓ : Loc nD τ sig) → Buf (Elt Ideal) ℓ) (ρ : Dev nD → PrngReg)

/-- The gathered source rows, in the reference's words. -/
abbrev src (c : Dev nD) : S480000x64.Idx → EReal :=
  Cert.ReferenceIdeal.Read.val_main_v6 (F := Ideal) (m ((c : Thread nD τ).loc main_arg0)) (m ((c : Thread nD τ).loc main_arg2))
/-- The gathered destination rows. -/
abbrev dstRows (c : Dev nD) : S480000x64.Idx → EReal :=
  Cert.ReferenceIdeal.Read.val_main_v13 (F := Ideal) (m ((c : Thread nD τ).loc main_arg0)) (m ((c : Thread nD τ).loc main_arg3))

/-- The updated edge features of every edge, from the launch arguments. -/
abbrev Enew (c : Dev nD) : S480000x64.Idx → EReal :=
  enewArr (src m c) (m ((c : Thread nD τ).loc main_arg1)) (dstRows m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The messages of every edge, from the launch arguments. -/
abbrev Msg (c : Dev nD) : S480000x64.Idx → EReal :=
  msgArr (src m c) (m ((c : Thread nD τ).loc main_arg1)) (dstRows m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- `combined` of the arrays the region finds, in terms of the launch arguments. -/
theorem Comb_eq (c : Dev nD) :
    Comb m c = combined (src m c) (m ((c : Thread nD τ).loc main_arg1)) (dstRows m c)
      (fuseTop (m ((c : Thread nD τ).loc main_arg4)) (m ((c : Thread nD τ).loc main_arg8))) (fuseMid (m ((c : Thread nD τ).loc main_arg4)) (m ((c : Thread nD τ).loc main_arg8))) (fuseBot (m ((c : Thread nD τ).loc main_arg4)) (m ((c : Thread nD τ).loc main_arg8)))
      (fuseBias (m ((c : Thread nD τ).loc main_arg5)) (m ((c : Thread nD τ).loc main_arg9))) (fuseDiag (m ((c : Thread nD τ).loc main_arg6)) (m ((c : Thread nD τ).loc main_arg10))) (fuseBias (m ((c : Thread nD τ).loc main_arg7)) (m ((c : Thread nD τ).loc main_arg11)))
      (fuseTop (m ((c : Thread nD τ).loc main_arg12)) (m ((c : Thread nD τ).loc main_arg16))) (fuseMid (m ((c : Thread nD τ).loc main_arg12)) (m ((c : Thread nD τ).loc main_arg16))) (fuseBot (m ((c : Thread nD τ).loc main_arg12)) (m ((c : Thread nD τ).loc main_arg16)))
      (fuseBias (m ((c : Thread nD τ).loc main_arg13)) (m ((c : Thread nD τ).loc main_arg17))) (fuseDiag (m ((c : Thread nD τ).loc main_arg14)) (m ((c : Thread nD τ).loc main_arg18))) (fuseBias (m ((c : Thread nD τ).loc main_arg15)) (m ((c : Thread nD τ).loc main_arg19))) := by
  unfold Comb
  rw [V_src, V_dst, V_main_arg1, V_eWs, V_eWm, V_eWd, V_eb0, V_eW1, V_eb1, V_nWs, V_nWm, V_nWd, V_nb0, V_nW1, V_nb1]

/-- The first 64 columns of the result are the updated edge features. -/
theorem comb_lo (c : Dev nD) :
    extractStridedSlice S480000x64 ![0, 0] (Comb m c) slices_S480000x128_S480000x64_0_0 = Enew m c := by
  rw [Comb_eq]
  funext i
  obtain ⟨r, j, rfl⟩ : ∃ (r : Fin 480000) (j : Fin 64), i = ix2 r j := ⟨i 0, i 1, eq_ix2 i⟩
  refine (slice2_axis1_apply 0 _ slices_S480000x128_S480000x64_0_0 r j (lo j) (Nat.zero_add _).symm).trans ?_
  refine (combinedAt_lo _ _ _ r j).trans ?_
  rw [wideEnew_eq _ _ _ (fuses (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))]
  rfl

/-- The last 64 columns are the messages. -/
theorem comb_hi (c : Dev nD) :
    extractStridedSlice S480000x64 ![0, 64] (Comb m c) slices_S480000x128_S480000x64_0_64 = Msg m c := by
  rw [Comb_eq]
  funext i
  obtain ⟨r, j, rfl⟩ : ∃ (r : Fin 480000) (j : Fin 64), i = ix2 r j := ⟨i 0, i 1, eq_ix2 i⟩
  refine (slice2_axis1_apply 64 _ slices_S480000x128_S480000x64_0_64 r j (hi j) rfl).trans ?_
  refine (combinedAt_hi _ _ _ r j).trans ?_
  rw [wideMsg_eq _ _ _ (fuses (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fuses (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))]
  rfl

/-- What the pipeline's result array holds when the tail starts. -/
theorem arr_result (c : Dev nD) :
    Pipeline.withArrays spec0 c (V0 m c) (fun w => (dats m 0 c).arrAt w cfg0.N) (Proc.devRef .tc main_v52) = Comb m c :=
  (Pipeline.withArrays_arr spec0 launch0.win.arr_inj c _ _ 15).trans (final m c)

/-- The first result: the updated edge features. -/
theorem enew_value (c : Dev nD) :
    Pipeline.afterTail₀ cfgs (dats m) 0 (V0 m) [hostOps1] c main_v53 = Enew m c := by
  unfold Pipeline.afterTail₀
  show StableHlo.after hostOps1 _ (Proc.devRef .tc main_v53) = _
  after_results
  rw [arr_result]
  exact comb_lo m c

/-- The second result: the node update of the messages. -/
theorem hnew_value (c : Dev nD) :
    Pipeline.afterTail₀ cfgs (dats m) 0 (V0 m) [hostOps1] c main_v59
      = Cert.ReferenceIdeal.RowValue.tail (m ((c : Thread nD τ).loc main_arg0)) (m ((c : Thread nD τ).loc main_arg3))
          (m ((c : Thread nD τ).loc main_arg20)) (Msg m c) := by
  unfold Pipeline.afterTail₀
  show StableHlo.after hostOps1 _ (Proc.devRef .tc main_v59) = _
  after_results
  rw [arr_result, comb_hi]
  rfl

end Cert.KernelIdeal.TailValue

end
-- ==== Proof.lean ====
/-
  One message-passing step of a graph network, kernel against reference, at the extended reals.

  Both programs gather the source and destination rows of the node features, compute for every edge the updated edge
  features  e' = e + gate_edge(src, e, dst)  and the message  gate_node(src, e', dst)  (gate = a two-branch perceptron,
  silu of the layers branch times the sigmoid of the gates branch), scatter-add the messages into the destination nodes,
  multiply by an output matrix and add the node features. The reference multiplies the three-piece 192-vector by each
  branch's 192×64 weights; the kernel fuses the two branches' weights side by side and on a block diagonal, multiplies
  piece by piece in blocks of 6000 edges, and writes e' and the message side by side. The two agree exactly:
  a sum over 192 indices is the sum of its three 64-index pieces, the zero blocks contribute x · 0 = 0 for every extended
  real x, a change of float format is the identity, and the kernel's logistic operation is by definition the quotient
  1 / (1 + e^(-x)) the reference spells out. No finiteness of the inputs is used.

  The frames are the generated ones (the reference's its generated run with the results dropped); the idealization rewrote
  nothing, so `preserves` is trivial; `algebraic` pairs the kernel's run, read through the generated frame (the result
  array block by block, then the host lines after the region), with the reference's generated run.
-/
import proofs.«110270_j60447369724157_2_alg».proof.Defs
import proofs.«110270_j60447369724157_2_alg».proof.Proof.Gen.Kernel
import proofs.«110270_j60447369724157_2_alg».proof.Proof.Gen.Kernel.Skeleton
import proofs.«110270_j60447369724157_2_alg».proof.Proof.Gen.Kernel.Launch
import proofs.«110270_j60447369724157_2_alg».proof.Proof.Gen.Kernel.Points
import proofs.«110270_j60447369724157_2_alg».proof.Proof.Gen.Kernel.Frame
import proofs.«110270_j60447369724157_2_alg».proof.Proof.Gen.KernelIdeal
import proofs.«110270_j60447369724157_2_alg».proof.Proof.Gen.KernelIdeal.Skeleton
import proofs.«110270_j60447369724157_2_alg».proof.Proof.Gen.KernelIdeal.Launch
import proofs.«110270_j60447369724157_2_alg».proof.Proof.Gen.KernelIdeal.Points
import proofs.«110270_j60447369724157_2_alg».proof.Proof.Gen.KernelIdeal.Frame
import proofs.«110270_j60447369724157_2_alg».proof.Proof.Gen.ReferenceIdeal
import proofs.«110270_j60447369724157_2_alg».proof.Proof.Gen.Pre_finite_inputs
import proofs.«110270_j60447369724157_2_alg».proof.Proof.Gen.ReferenceIdeal.Run
import proofs.«110270_j60447369724157_2_alg».proof.Proof.Gen.ReferenceIdeal.Read
import proofs.«110270_j60447369724157_2_alg».proof.Proof.KernelTail
import proofs.«110270_j60447369724157_2_alg».proof.Proof.RefRow
import Idealize.ShloMosaic.Adequacy
import Idealize.ShloMosaic.Init

set_option maxRecDepth 16384

noncomputable section

namespace Cert.Proof

open Idealize.ShloMosaic Idealize.SL.Sem

namespace KernelSide

open Cert.KernelIdeal Cert.KernelIdeal.Gen Cert.KernelIdeal.Blocks Cert.KernelIdeal.TailValue
open Idealize.ShloMosaic.TcCoe

/-- The idealized kernel's run: the updated node features are the node update of the messages, the second result the
    updated edge features, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59)
        = Cert.ReferenceIdeal.RowValue.tail (m ((c.tc : Thread nD τ).loc main_arg0)) (m ((c.tc : Thread nD τ).loc main_arg3)) (m ((c.tc : Thread nD τ).loc main_arg20)) (Msg m c)
      ∧ r.2.mem ((c.tc : Thread nD τ).loc main_v53) = Enew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨
      ((h c).2 main_v59 (Pipeline.mem_restRefs_of main_v59 (by decide) (by decide))).trans (hnew_value m c),
      ((h c).2 main_v53 (Pipeline.mem_restRefs_of main_v53 (by decide) (by decide))).trans (enew_value m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c))⟩)
    (run_main m ρ)

end KernelSide

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the node update of `msgArr` and with `enewArr` of the gathered rows, the edge features and the
    weights: the kernel's by its value modules, the reference's by its generated run read stage by stage. -/
theorem algebraic : Cert.algebraic_KernelIdeal_ReferenceIdeal := by
  intro m ρ m' ρ' _ hagree
  refine ⟨_, _, KernelSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20⟩ := hagree c
    rw [Cert.ReferenceIdeal.Read.val_main_v73_eq, Cert.ReferenceIdeal.RowValue.v73_form, Cert.ReferenceIdeal.RowValue.v68_eq,
      a0, a1, a2, a3, a4, a5, a6, a7, a8, a9, a10, a11, a12, a13, a14, a15, a16, a17, a18, a19, a20]
  · obtain ⟨a0, a1, a2, a3, a4, a5, a6, a7, a8, a9, a10, a11, -⟩ := hagree c
    rw [Cert.ReferenceIdeal.Read.val_main_v41_eq, Cert.ReferenceIdeal.RowValue.v41_eq,
      a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
